-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S16x256 : Shape := ⟨2, ![16, 256]⟩
abbrev S256x16 : Shape := ⟨2, ![256, 16]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S32x256x56x56 .f32) (main_arg1 : FVec F S16x256 .f32) (main_arg2 : FVec F S256x16 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S256x16 .f32 := Host.absf main_arg2
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  main_v13
-- ==== Kernel.lean ====
abbrev S32x256x56x56 : Shape := ⟨4, ![32, 256, 56, 56]⟩
abbrev S16x256 : Shape := ⟨2, ![16, 256]⟩
abbrev S256x16 : Shape := ⟨2, ![256, 16]⟩
abbrev S32x56x56x256 : Shape := ⟨4, ![32, 56, 56, 256]⟩
abbrev S4x56x56x256 : Shape := ⟨4, ![4, 56, 56, 256]⟩
abbrev S4x256 : Shape := ⟨2, ![4, 256]⟩
abbrev S4x16 : Shape := ⟨2, ![4, 16]⟩
abbrev S4x1x1x256 : Shape := ⟨4, ![4, 1, 1, 256]⟩

abbrev nBuf : Space → Nat
  | .hbm => 6
  | .vmem => 6
  | .smem => 0
  | _ => 0

abbrev bufTy : (tb : Table) → Fin (tcTables nBuf tb) → BufTy
  | .hbm, ⟨0, _⟩ => ⟨S32x256x56x56, .f32⟩
  | .hbm, ⟨1, _⟩ => ⟨S16x256, .f32⟩
  | .hbm, ⟨2, _⟩ => ⟨S256x16, .f32⟩
  | .hbm, ⟨3, _⟩ => ⟨S32x56x56x256, .f32⟩
  | .hbm, ⟨4, _⟩ => ⟨S32x56x56x256, .f32⟩
  | .hbm, ⟨5, _⟩ => ⟨S32x256x56x56, .f32⟩
  | .local _ .vmem, ⟨0, _⟩ => ⟨S4x56x56x256, .f32⟩
  | .local _ .vmem, ⟨1, _⟩ => ⟨S4x56x56x256, .f32⟩
  | .local _ .vmem, ⟨2, _⟩ => ⟨S16x256, .f32⟩
  | .local _ .vmem, ⟨3, _⟩ => ⟨S256x16, .f32⟩
  | .local _ .vmem, ⟨4, _⟩ => ⟨S4x56x56x256, .f32⟩
  | .local _ .vmem, ⟨5, _⟩ => ⟨S4x56x56x256, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x56x56x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x56x56x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S32x256x56x56_S32x56x56x256_0_2_3_1 : S32x256x56x56.Transposes [0, 2, 3, 1] S32x56x56x256
  inb_S4x56x56x256_S4x56x56x256_0_0_0_0 : ∀ a, (![0, 0, 0, 0] : Fin 4 → Nat) a + S4x56x56x256.size a ≤ S4x56x56x256.size a
  h_S4x56x56x256 : 0 < S4x56x56x256.numel
  shapeCasts_S4x56x56x256_S4x56x56x256 : S4x56x56x256.ShapeCasts S4x56x56x256
  reduces_S4x56x56x256_S4x256 : S4x56x56x256.Reduces [1, 2] S4x256
  inb_S16x256_S16x256_0_0 : ∀ a, (![0, 0] : Fin 2 → Nat) a + S16x256.size a ≤ S16x256.size a
  h_S16x256 : 0 < S16x256.numel
  inb_S256x16_S256x16_0_0 : ∀ a, (![0, 0] : Fin 2 → Nat) a + S256x16.size a ≤ S256x16.size a
  h_S256x16 : 0 < S256x16.numel
  shapeCasts_S4x256_S4x1x1x256 : S4x256.ShapeCasts S4x1x1x256
  broadcasts_S4x1x1x256_S4x56x56x256 : S4x1x1x256.Broadcasts S4x56x56x256
  transposes_S32x56x56x256_S32x256x56x56_0_3_1_2 : S32x56x56x256.Transposes [0, 3, 1, 2] S32x256x56x56
  dot_S4x256_S16x256_S4x16_1_1_0_0_n_n_wf : DotDims.WF S4x256 S16x256 S4x16 [1] [1] [0] [0] [] []
  dot_S4x16_S256x16_S4x256_1_1_0_0_n_n_wf : DotDims.WF S4x16 S256x16 S4x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x56x56x256.size a ≤ S32x56x56x256.size a
  hwx0_0 : ∀ i : grid0.Coords, EltTy.bits .f32 = 32 ∨ (Rect.block (s := S32x56x56x256) S4x56x56x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S256x16.size a
  hwx0_2 : ∀ i : grid0.Coords, EltTy.bits .f32 = 32 ∨ (Rect.block (s := S256x16) S256x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x56x56x256.size a ≤ S32x56x56x256.size a
  hwx0_3 : ∀ i : grid0.Coords, EltTy.bits .f32 = 32 ∨ (Rect.block (s := S32x56x56x256) S4x56x56x256.size (cc0_transform_3 i) (hinb0_3 i)).WholeWords (EltTy.packing .f32)

variable [Facts₀]

def dot_S4x256_S16x256_S4x16_1_1_0_0_n_n : DotDims S4x256 S16x256 S4x16 where
  lhsContracting := [1]
  rhsContracting := [1]
  lhsNonContracting := [0]
  rhsNonContracting := [0]
  lhsBatch := []
  rhsBatch := []
  wf := dot_S4x256_S16x256_S4x16_1_1_0_0_n_n_wf
def dot_S4x16_S256x16_S4x256_1_1_0_0_n_n : DotDims S4x16 S256x16 S4x256 where
  lhsContracting := [1]
  rhsContracting := [1]
  lhsNonContracting := [0]
  rhsNonContracting := [0]
  lhsBatch := []
  rhsBatch := []
  wf := dot_S4x16_S256x16_S4x256_1_1_0_0_n_n_wf

abbrev win0_0 : Pipeline.Window sig grid0 :=
  Pipeline.Window.ofSpec (Memref.whole main_v0) S4x56x56x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4x56x56x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x256x56x56 : Shape := ⟨4, ![32, 256, 56, 56]⟩
abbrev S16x256 : Shape := ⟨2, ![16, 256]⟩
abbrev S256x16 : Shape := ⟨2, ![256, 16]⟩
abbrev S32x256x3136 : Shape := ⟨3, ![32, 256, 3136]⟩
abbrev S_ : Shape := ⟨0, ![]⟩
abbrev S32x256x4096 : Shape := ⟨3, ![32, 256, 4096]⟩
abbrev S32x256x1 : Shape := ⟨3, ![32, 256, 1]⟩
abbrev S1x256x2048 : Shape := ⟨3, ![1, 256, 2048]⟩
abbrev S1x256x1 : Shape := ⟨3, ![1, 256, 1]⟩
abbrev S1x256 : Shape := ⟨2, ![1, 256]⟩
abbrev S32x256 : Shape := ⟨2, ![32, 256]⟩
abbrev S32x16 : Shape := ⟨2, ![32, 16]⟩

abbrev nBuf : Space → Nat
  | .hbm => 22
  | .vmem => 14
  | .smem => 0
  | _ => 0

abbrev bufTy : (tb : Table) → Fin (tcTables nBuf tb) → BufTy
  | .hbm, ⟨0, _⟩ => ⟨S32x256x56x56, .f32⟩
  | .hbm, ⟨1, _⟩ => ⟨S16x256, .f32⟩
  | .hbm, ⟨2, _⟩ => ⟨S256x16, .f32⟩
  | .hbm, ⟨3, _⟩ => ⟨S32x256x3136, .f32⟩
  | .hbm, ⟨4, _⟩ => ⟨S_, .i32⟩
  | .hbm, ⟨5, _⟩ => ⟨S_, .f32⟩
  | .hbm, ⟨6, _⟩ => ⟨S32x256x4096, .f32⟩
  | .hbm, ⟨7, _⟩ => ⟨S256x16, .f32⟩
  | .hbm, ⟨8, _⟩ => ⟨S_, .i32⟩
  | .hbm, ⟨9, _⟩ => ⟨S_, .f32⟩
  | .hbm, ⟨10, _⟩ => ⟨S256x16, .f32⟩
  | .hbm, ⟨11, _⟩ => ⟨S16x256, .f32⟩
  | .hbm, ⟨12, _⟩ => ⟨S_, .i32⟩
  | .hbm, ⟨13, _⟩ => ⟨S_, .f32⟩
  | .hbm, ⟨14, _⟩ => ⟨S16x256, .f32⟩
  | .hbm, ⟨15, _⟩ => ⟨S32x256x1, .f32⟩
  | .hbm, ⟨16, _⟩ => ⟨S32x256, .f32⟩
  | .hbm, ⟨17, _⟩ => ⟨S32x256, .f32⟩
  | .hbm, ⟨18, _⟩ => ⟨S32x256x1, .f32⟩
  | .hbm, ⟨19, _⟩ => ⟨S32x256x4096, .f32⟩
  | .hbm, ⟨20, _⟩ => ⟨S32x256x3136, .f32⟩
  | .hbm, ⟨21, _⟩ => ⟨S32x256x56x56, .f32⟩
  | .local _ .vmem, ⟨0, _⟩ => ⟨S1x256x2048, .f32⟩
  | .local _ .vmem, ⟨1, _⟩ => ⟨S1x256x2048, .f32⟩
  | .local _ .vmem, ⟨2, _⟩ => ⟨S1x256x1, .f32⟩
  | .local _ .vmem, ⟨3, _⟩ => ⟨S1x256x1, .f32⟩
  | .local _ .vmem, ⟨4, _⟩ => ⟨S32x256, .f32⟩
  | .local _ .vmem, ⟨5, _⟩ => ⟨S256x16, .f32⟩
  | .local _ .vmem, ⟨6, _⟩ => ⟨S16x256, .f32⟩
  | .local _ .vmem, ⟨7, _⟩ => ⟨S32x256, .f32⟩
  | .local _ .vmem, ⟨8, _⟩ => ⟨S1x256x2048, .f32⟩
  | .local _ .vmem, ⟨9, _⟩ => ⟨S1x256x2048, .f32⟩
  | .local _ .vmem, ⟨10, _⟩ => ⟨S1x256x1, .f32⟩
  | .local _ .vmem, ⟨11, _⟩ => ⟨S1x256x1, .f32⟩
  | .local _ .vmem, ⟨12, _⟩ => ⟨S1x256x2048, .f32⟩
  | .local _ .vmem, ⟨13, _⟩ => ⟨S1x256x2048, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_call2_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := .none

abbrev stage1_0 : Fin 1 → Memref sig .tc .vmem S32x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S32x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := ⟨2, ![32, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S32x256x56x56_S32x256x3136 : S32x256x56x56.ShapeCasts S32x256x3136
  pads_S32x256x3136_S32x256x4096_000_000_09600 : S32x256x3136.Pads (![0, 0, 0] : Fin 3 → Nat) ![0, 0, 960] ![0, 0, 0] S32x256x4096
  h_S_ : 0 < S_.numel
  transposes_S16x256_S256x16_1_0 : S16x256.Transposes [1, 0] S256x16
  pads_S256x16_S256x16_000_000 : S256x16.Pads (![0, 0] : Fin 2 → Nat) ![0, 0] ![0, 0] S256x16
  transposes_S256x16_S16x256_1_0 : S256x16.Transposes [1, 0] S16x256
  pads_S16x256_S16x256_000_000 : S16x256.Pads (![0, 0] : Fin 2 → Nat) ![0, 0] ![0, 0] S16x256
  inb_S1x256x1_S1x256x1_0_0_0 : ∀ a, (![0, 0, 0] : Fin 3 → Nat) a + S1x256x1.size a ≤ S1x256x1.size a
  h_S1x256x1 : 0 < S1x256x1.numel
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S1x256x2048 : S1x256x2048.ShapeCasts S1x256x2048
  shapeCasts_S1x256x1_S1x256x1 : S1x256x1.ShapeCasts S1x256x1
  reduces_S1x256x2048_S1x256 : S1x256x2048.Reduces [2] S1x256
  shapeCasts_S1x256_S1x256x1 : S1x256.ShapeCasts S1x256x1
  shapeCasts_S32x256x1_S32x256 : S32x256x1.ShapeCasts S32x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S16x256_S16x256_0_0 : ∀ a, (![0, 0] : Fin 2 → Nat) a + S16x256.size a ≤ S16x256.size a
  h_S16x256 : 0 < S16x256.numel
  shapeCasts_S16x256_S16x256 : S16x256.ShapeCasts S16x256
  shapeCasts_S32x256_S32x256x1 : S32x256.ShapeCasts S32x256x1
  broadcasts_S1x256x1_S1x256x2048 : S1x256x1.Broadcasts S1x256x2048
  slices_S32x256x4096_S32x256x3136_0_0_0 : S32x256x4096.Slices ![0, 0, 0] S32x256x3136
  shapeCasts_S32x256x3136_S32x256x56x56 : S32x256x3136.ShapeCasts S32x256x56x56
  dot_S32x256_S256x16_S32x16_1_0_0_1_n_n_wf : DotDims.WF S32x256 S256x16 S32x16 [1] [0] [0] [1] [] []
  dot_S32x16_S16x256_S32x256_1_0_0_1_n_n_wf : DotDims.WF S32x16 S16x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S32x256x4096.size a
  hwx0_0 : ∀ i : grid0.Coords, EltTy.bits .f32 = 32 ∨ (Rect.block (s := S32x256x4096) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S32x256x1.size a
  hwx0_1 : ∀ i : grid0.Coords, EltTy.bits .f32 = 32 ∨ (Rect.block (s := S32x256x1) S1x256x1.size (cc0_transform_1 i) (hinb0_1 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x2048.size a ≤ S32x256x4096.size a
  hwx2_0 : ∀ i : grid2.Coords, EltTy.bits .f32 = 32 ∨ (Rect.block (s := S32x256x4096) S1x256x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x256x1.size a ≤ S32x256x1.size a
  hwx2_1 : ∀ i : grid2.Coords, EltTy.bits .f32 = 32 ∨ (Rect.block (s := S32x256x1) S1x256x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256x2048.size a ≤ S32x256x4096.size a
  hwx2_2 : ∀ i : grid2.Coords, EltTy.bits .f32 = 32 ∨ (Rect.block (s := S32x256x4096) S1x256x2048.size (cc2_transform_2 i) (hinb2_2 i)).WholeWords (EltTy.packing .f32)

variable [Facts₀]

def dot_S32x256_S256x16_S32x16_1_0_0_1_n_n : DotDims S32x256 S256x16 S32x16 where
  lhsContracting := [1]
  rhsContracting := [0]
  lhsNonContracting := [0]
  rhsNonContracting := [1]
  lhsBatch := []
  rhsBatch := []
  wf := dot_S32x256_S256x16_S32x16_1_0_0_1_n_n_wf
def dot_S32x16_S16x256_S32x256_1_0_0_1_n_n : DotDims S32x16 S16x256 S32x256 where
  lhsContracting := [1]
  rhsContracting := [0]
  lhsNonContracting := [0]
  rhsNonContracting := [1]
  lhsBatch := []
  rhsBatch := []
  wf := dot_S32x16_S16x256_S32x256_1_0_0_1_n_n_wf

abbrev win0_0 : Pipeline.Window sig grid0 :=
  Pipeline.Window.ofSpec (Memref.whole main_v1) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.whole (Memref.whole main_v7) false false (stage1_0 0) (sem1_0 0) (Memref.isWhole_whole _) (hstage1_0 0)

abbrev win1_1 : Pipeline.Window sig grid1 :=
  Pipeline.Window.whole (Memref.whole main_v3) false false (stage1_1 0) (sem1_1 0) (Memref.isWhole_whole _) (hstage1_1 0)

abbrev win1_2 : Pipeline.Window sig grid1 :=
  Pipeline.Window.whole (Memref.whole main_v5) false false (stage1_2 0) (sem1_2 0) (Memref.isWhole_whole _) (hstage1_2 0)

abbrev win1_3 : Pipeline.Window sig grid1 :=
  Pipeline.Window.whole (Memref.whole main_v8) true false (stage1_3 0) (sem1_3 0) (Memref.isWhole_whole _) (hstage1_3 0)

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S1x256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1x256x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x256x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== Proof.Spec.lean ====
/-
  The channel-attention gate as ONE function of the three argument arrays, on the extended reals.

  For a sample n and a channel c, the pooled value is the sum of x over the 56 x 56 spatial positions times the
  averaging factor (the f32 word nearest 1/3136, read as the exact real it denotes); the hidden unit j is
  max(sum over c of pooled(n, c) * w1(j, c), 0); the gate is the logistic function of sum over j of hidden(n, j) * w2(c, j);
  and the result at (n, c, h, w) is x(n, c, h, w) times the gate at (n, c). Both programs are shown to compute `G`.
-/
import Idealize.ShloMosaic.PureOps.Ideal
import Idealize.ShloMosaic.Lib.ValueIdx

noncomputable section

open scoped BigOperators

namespace Cert.Spec

open Idealize.ShloMosaic Idealize.ShloMosaic.ValueIdx

/-- The activation array's shape [32, 256, 56, 56] and the two weight shapes. -/
abbrev SX : Shape := ⟨4, ![32, 256, 56, 56]⟩
abbrev SW1 : Shape := ⟨2, ![16, 256]⟩
abbrev SW2 : Shape := ⟨2, ![256, 16]⟩

/-- The averaging factor: the f32 word both programs multiply the spatial sum by, as the real it denotes. -/
def inv : EReal := Ideal.ofBits .f32 0x39A72F05#32

/-- The spatial sum of sample `n`, channel `c`, times the averaging factor. -/
def pooled (x : SX.Idx → EReal) (n : Fin 32) (c : Fin 256) : EReal :=
  (∑ h : Fin 56, ∑ w : Fin 56, x (ix4 n c h w)) * inv

/-- The hidden unit `j` of sample `n`: the rectified product of the pooled row with row `j` of `w1`. -/
def hidden (x : SX.Idx → EReal) (w1 : SW1.Idx → EReal) (n : Fin 32) (j : Fin 16) : EReal :=
  max (∑ c : Fin 256, pooled x n c * w1 (ix2 j c)) 0

/-- The gate of sample `n`, channel `c`: the logistic function of the hidden row against row `c` of `w2`. -/
def gate (x : SX.Idx → EReal) (w1 : SW1.Idx → EReal) (w2 : SW2.Idx → EReal) (n : Fin 32) (c : Fin 256) : EReal :=
  Ideal.logistic (∑ j : Fin 16, hidden x w1 n j * w2 (ix2 c j))

/-- The gated activations: every entry of `x` times its sample's and channel's gate. -/
def G (x : SX.Idx → EReal) (w1 : SW1.Idx → EReal) (w2 : SW2.Idx → EReal) : SX.Idx → EReal :=
  fun i => x i * gate x w1 w2 (i 0) (i 1)

theorem G_apply (x : SX.Idx → EReal) (w1 : SW1.Idx → EReal) (w2 : SW2.Idx → EReal)
    (n : Fin 32) (c : Fin 256) (h w : Fin 56) :
    G x w1 w2 (ix4 n c h w) = x (ix4 n c h w) * gate x w1 w2 n c := rfl

end Cert.Spec

end
-- ==== Proof.LibTwoAxisSum.lean ====
/-
  A sum over the two middle axes of a four-axis array, read at an entry.

  Reducing an array of extents [n0, n1, n2, n3] over its axes 1 and 2 leaves an array of extents [n0, n3]. The source
  indices that drop to the entry (a, d) are exactly the indices (a, p, q, d), one for every pair (p, q) of middle
  coordinates, so on the extended reals the reduced entry is the double sum over p and q of the source at (a, p, q, d).
-/
import Idealize.ShloMosaic.PureOps.Ideal.Laws
import Idealize.ShloMosaic.Lib.ValueIdx

noncomputable section

namespace Cert.LibTwoAxisSum

open Idealize.ShloMosaic Idealize.ShloMosaic.ValueIdx
open scoped BigOperators

variable {n0 n1 n2 n3 : ℕ}

/-- Dropping the two middle axes keeps the first coordinate on the result's first axis. -/
theorem drop_val0 (h : (⟨4, ![n0, n1, n2, n3]⟩ : Shape).Reduces [1, 2] ⟨2, ![n0, n3]⟩)
    (i : (⟨4, ![n0, n1, n2, n3]⟩ : Shape).Idx) : (h.drop i (0 : Fin 2)).val = (i (0 : Fin 4)).val :=
  rfl

/-- Dropping the two middle axes keeps the last coordinate on the result's second axis. -/
theorem drop_val1 (h : (⟨4, ![n0, n1, n2, n3]⟩ : Shape).Reduces [1, 2] ⟨2, ![n0, n3]⟩)
    (i : (⟨4, ![n0, n1, n2, n3]⟩ : Shape).Idx) : (h.drop i (1 : Fin 2)).val = (i (3 : Fin 4)).val :=
  rfl

/-- The indices dropping to (a, d), summed, are the two middle coordinates, summed. -/
theorem sum_filter_drop_mid (h : (⟨4, ![n0, n1, n2, n3]⟩ : Shape).Reduces [1, 2] ⟨2, ![n0, n3]⟩)
    (x : (⟨4, ![n0, n1, n2, n3]⟩ : Shape).Idx → EReal) (a : Fin n0) (d : Fin n3) :
    ∑ i ∈ Finset.univ.filter (fun i => h.drop i = ix2 a d), x i = ∑ p : Fin n1, ∑ q : Fin n2, x (ix4 a p q d) := by
  have back : ∀ (p : Fin n1) (q : Fin n2), h.drop (ix4 a p q d) = ix2 a d := fun p q =>
    funext fun b => Fin.ext (by
      match b with
      | ⟨0, _⟩ => exact drop_val0 h _
      | ⟨1, _⟩ => exact drop_val1 h _)
  have left : ∀ i : (⟨4, ![n0, n1, n2, n3]⟩ : Shape).Idx, h.drop i = ix2 a d →
      ix4 a (i (1 : Fin 4) : Fin n1) (i (2 : Fin 4) : Fin n2) d = i := fun i hi =>
    funext fun e => Fin.ext (by
      match e with
      | ⟨0, _⟩ => exact ((drop_val0 h i).symm.trans (congrArg (fun j : (⟨2, ![n0, n3]⟩ : Shape).Idx => (j (0 : Fin 2)).val) hi)).symm
      | ⟨1, _⟩ => rfl
      | ⟨2, _⟩ => rfl
      | ⟨3, _⟩ => exact ((drop_val1 h i).symm.trans (congrArg (fun j : (⟨2, ![n0, n3]⟩ : Shape).Idx => (j (1 : Fin 2)).val) hi)).symm)
  calc ∑ i ∈ Finset.univ.filter (fun i => h.drop i = ix2 a d), x i
      = ∑ pq : Fin n1 × Fin n2, x (ix4 a pq.1 pq.2 d) := by
        refine Finset.sum_nbij' (fun i => ((i (1 : Fin 4) : Fin n1), (i (2 : Fin 4) : Fin n2))) (fun pq => ix4 a pq.1 pq.2 d) ?_ ?_ ?_ ?_ ?_
        · intro i _; exact Finset.mem_univ _
        · intro pq _; exact Finset.mem_filter.2 ⟨Finset.mem_univ _, back pq.1 pq.2⟩
        · intro i hi; exact left i (Finset.mem_filter.1 hi).2
        · intro pq _; rfl
        · intro i hi; exact congrArg x (left i (Finset.mem_filter.1 hi).2).symm
    _ = ∑ p : Fin n1, ∑ q : Fin n2, x (ix4 a p q d) := Fintype.sum_prod_type _

/-- So a float sum-reduction over the two middle axes, read on the extended reals at (a, d), is that double sum. -/
theorem multiReduction_add_middle {φ : FTy} (src : FVec Ideal ⟨4, ![n0, n1, n2, n3]⟩ φ) (acc : BitVec φ.bits)
    (h : (⟨4, ![n0, n1, n2, n3]⟩ : Shape).Reduces [1, 2] ⟨2, ![n0, n3]⟩) (hφ : FKind.Formats φ)
    (hacc : acc = FKind.add.neutral φ hφ) (a : Fin n0) (d : Fin n3) :
    multiReduction .add [1, 2] ⟨2, ![n0, n3]⟩ src acc h hφ hacc (ix2 a d) = ∑ p : Fin n1, ∑ q : Fin n2, src (ix4 a p q d) :=
  sum_filter_drop_mid h src a d

end Cert.LibTwoAxisSum

end
-- ==== Proof.LibTransposedMatmul.lean ====
/-
  A matrix product against a transposed right operand, read at an entry.

  For the dimension numbers "contract the left operand's second axis with the right operand's SECOND axis" an `[M, K]` by
  `[N, K]` product, accumulated into a zero array, has at row `p` and column `c` the entry `∑ k, W p k · X c k` over the
  extended reals (the product `W · Xᵀ`): the contraction position is its one coordinate `k`, the left operand is read at
  `(p, k)` and the right one at `(c, k)`. The same reading holds of a host `dot_general` with those dimension numbers.
-/
import Idealize.ShloMosaic.PureOps.Ideal.Laws
import Idealize.ShloMosaic.Lib.ValueIdx

noncomputable section

namespace Cert.LibTransposedMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The left operand's column coordinate is the contraction position. -/
theorem lhs_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row coordinate is the result's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The right operand's column coordinate is the contraction position. -/
theorem rhs_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The sum over the contraction positions, re-indexed by the one coordinate. -/
theorem sum_contr {φ₁ φ₂ : FTy} (W : FVec Ideal ⟨2, ![M, K]⟩ φ₁) (X : FVec Ideal ⟨2, ![N, K]⟩ φ₂) (p : Fin M) (c : Fin N) :
    (∑ q : (DotDims.transposedRhs M K N).contr.Idx,
        W ((DotDims.transposedRhs M K N).lhsIdx (ix2 p c) q) * X ((DotDims.transposedRhs M K N).rhsIdx (ix2 p c) q))
      = ∑ k : Fin K, W (ix2 p k) * X (ix2 c k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p c) ((contrEquiv1 (DotDims.transposedRhs M K N) K rfl rfl).symm k) = ix2 p k :=
    funext fun a => Fin.ext (by
      match a with
      | ⟨0, _⟩ => exact lhs_row M K N _ _
      | ⟨1, _⟩ => exact (lhs_col M K N _ _).trans hk)
  have er : (DotDims.transposedRhs M K N).rhsIdx (ix2 p c) ((contrEquiv1 (DotDims.transposedRhs M K N) K rfl rfl).symm k) = ix2 c k :=
    funext fun a => Fin.ext (by
      match a with
      | ⟨0, _⟩ => exact rhs_row M K N _ _
      | ⟨1, _⟩ => exact (rhs_col M K N _ _).trans hk)
  rw [el, er]

/-- A kernel's product against a transposed right operand into a zero accumulator, at an entry. -/
theorem matmul_zero_apply {φ₁ φ₂ : FTy} (prec : Option ContractPrecision) (W : FVec Ideal ⟨2, ![M, K]⟩ φ₁)
    (X : FVec Ideal ⟨2, ![N, K]⟩ φ₂) (p : Fin M) (c : Fin N) :
    matmul (DotDims.transposedRhs M K N) prec W X (constant (F := Ideal) ⟨2, ![M, N]⟩ .f32 0x00000000#32) (ix2 p c)
      = ∑ k : Fin K, W (ix2 p k) * X (ix2 c k) := by
  simp only [matmul]
  rw [Ideal.matmul_constant_zero_apply]
  exact sum_contr M K N W X p c

/-- A host product against a transposed right operand, at an entry. -/
theorem dotGeneral_apply {φ₁ φ₂ : FTy} (prec : Option ContractPrecision) (W : FVec Ideal ⟨2, ![M, K]⟩ φ₁)
    (X : FVec Ideal ⟨2, ![N, K]⟩ φ₂) (p : Fin M) (c : Fin N) :
    Host.dotGeneral (DotDims.transposedRhs M K N) prec W X (ix2 p c) = ∑ k : Fin K, W (ix2 p k) * X (ix2 c k) := by
  simp only [Host.dotGeneral]
  rw [Ideal.dotGeneral_apply]
  exact sum_contr M K N W X p c

end Cert.LibTransposedMatmul

end
-- ==== Proof.KernelValuePayload.lean ====
/-
  The kernel body's stored value at an index of its block.

  One grid point works on a block of four samples, laid out [4, 56, 56, 256] (sample, row, column, channel). The body
  sums the block over its two spatial axes and scales by the averaging factor (the pooled [4, 256] array), multiplies
  the pooled rows by the rows of the first weight array and rectifies (the hidden [4, 16] array), multiplies the hidden
  rows by the rows of the second weight array and applies the logistic function (the gate, [4, 256]), spreads the gate
  over the spatial positions and multiplies the block by it. Read at (b, h, w, ch) the stored value is therefore the
  block's entry there times the gate of sample b and channel ch, which depends on the block only through sample b.
-/
import proofs.«136967_g2000605387723184_pallasbulk_480_9_alg».proof.Proof.Gen.KernelIdeal.Skeleton
import proofs.«136967_g2000605387723184_pallasbulk_480_9_alg».proof.Proof.Spec
import proofs.«136967_g2000605387723184_pallasbulk_480_9_alg».proof.Proof.LibTwoAxisSum
import proofs.«136967_g2000605387723184_pallasbulk_480_9_alg».proof.Proof.LibTransposedMatmul
import Idealize.ShloMosaic.Lib.Pipeline.Value
import Idealize.ShloMosaic.Lib.ValueIdx
import Idealize.ShloMosaic.PureOps.Ideal.Laws

noncomputable section

open scoped BigOperators

namespace Cert.KernelIdeal.KValue

open Idealize.ShloMosaic Idealize.ShloMosaic.ValueIdx
open Cert.KernelIdeal Cert.KernelIdeal.Gen

/-! ## The block's mathematics, over explicit coordinates -/

/-- The pooled value of sample `b`, channel `k` of a block: its spatial sum times the averaging factor. -/
def poolB (x0 : S4x56x56x256.Idx → EReal) (b : Fin 4) (k : Fin 256) : EReal :=
  (∑ h' : Fin 56, ∑ w' : Fin 56, x0 (ix4 b h' w' k)) * Cert.Spec.inv

/-- The hidden unit `j` of sample `b`: the rectified product of the pooled row with row `j` of the first weights. -/
def hiddenB (x0 : S4x56x56x256.Idx → EReal) (x1 : S16x256.Idx → EReal) (b : Fin 4) (j : Fin 16) : EReal :=
  max (∑ k : Fin 256, poolB x0 b k * x1 (ix2 j k)) 0

/-- The gate of sample `b`, channel `ch`: the logistic function of the hidden row against row `ch` of the second weights. -/
def gateB (x0 : S4x56x56x256.Idx → EReal) (x1 : S16x256.Idx → EReal) (x2 : S256x16.Idx → EReal) (b : Fin 4) (ch : Fin 256) : EReal :=
  Ideal.logistic (∑ j : Fin 16, hiddenB x0 x1 b j * x2 (ix2 ch j))

/-! ## The body's stages, as the program writes them -/

/-- The spatial sum scaled by the averaging factor. -/
def pooledV (v : FVec Ideal S4x56x56x256 .f32) : FVec Ideal S4x256 .f32 :=
  mulf (multiReduction .add [1, 2] S4x256 v 0x00000000#32 reduces_S4x56x56x256_S4x256 (.inl rfl) rfl)
    (broadcast S4x256 (Scalar.ofBits (F := Ideal) .f32 0x39A72F05#32))

/-- The first product, rectified. -/
def hiddenV (p : FVec Ideal S4x256 .f32) (x1 : FVec Ideal S16x256 .f32) : FVec Ideal S4x16 .f32 :=
  maximumf (matmul dot_S4x256_S16x256_S4x16_1_1_0_0_n_n none p x1 (constant S4x16 .f32 0x00000000#32))
    (broadcast S4x16 (Scalar.ofBits (F := Ideal) .f32 0x00000000#32))

/-- The second product, through the logistic function. -/
def gateV (hd : FVec Ideal S4x16 .f32) (x2 : FVec Ideal S256x16 .f32) : FVec Ideal S4x256 .f32 :=
  logistic (matmul dot_S4x16_S256x16_S4x256_1_1_0_0_n_n none hd x2 (constant S4x256 .f32 0x00000000#32))

/-- The gate spread over the spatial positions. -/
def spreadV (g : FVec Ideal S4x256 .f32) : FVec Ideal S4x56x56x256 .f32 :=
  broadcastTo S4x56x56x256 (shapeCast S4x1x1x256 g shapeCasts_S4x256_S4x1x1x256) broadcasts_S4x1x1x256_S4x56x56x256

/-- The stored value is the block times the spread gate: the program's lines, grouped. -/
theorem pay_eq (x0 : Vec Ideal S4x56x56x256 .f32) (x1 : Vec Ideal S16x256 .f32) (x2 : Vec Ideal S256x16 .f32) :
    k0_pay1 (F := Ideal) x0 x1 x2
      = mulf (shapeCast S4x56x56x256 x0 shapeCasts_S4x56x56x256_S4x56x56x256)
          (spreadV (gateV (hiddenV (pooledV (shapeCast S4x56x56x256 x0 shapeCasts_S4x56x56x256_S4x56x56x256)) x1) x2)) := rfl

/-! ## Each stage at an index -/

theorem pooledV_apply (v : FVec Ideal S4x56x56x256 .f32) (b : Fin 4) (k : Fin 256) :
    pooledV v (ix2 b k) = poolB v b k := by
  unfold pooledV poolB
  show multiReduction .add [1, 2] S4x256 v 0x00000000#32 reduces_S4x56x56x256_S4x256 (.inl rfl) rfl (ix2 b k)
      * Ideal.ofBits .f32 0x39A72F05#32 = _
  exact congrArg (· * Cert.Spec.inv) (Cert.LibTwoAxisSum.multiReduction_add_middle v _ _ _ _ b k)

theorem hiddenV_apply (p : FVec Ideal S4x256 .f32) (x1 : FVec Ideal S16x256 .f32) (b : Fin 4) (j : Fin 16) :
    hiddenV p x1 (ix2 b j) = max (∑ k : Fin 256, p (ix2 b k) * x1 (ix2 j k)) 0 := by
  unfold hiddenV
  show max (matmul dot_S4x256_S16x256_S4x16_1_1_0_0_n_n none p x1 (constant S4x16 .f32 0x00000000#32) (ix2 b j))
      (Ideal.ofBits .f32 0x00000000#32) = _
  rw [Ideal.ofBits_zero_f32]
  exact congrArg (max · 0) (Cert.LibTransposedMatmul.matmul_zero_apply 4 256 16 none p x1 b j)

theorem gateV_apply (hd : FVec Ideal S4x16 .f32) (x2 : FVec Ideal S256x16 .f32) (b : Fin 4) (ch : Fin 256) :
    gateV hd x2 (ix2 b ch) = Ideal.logistic (∑ j : Fin 16, hd (ix2 b j) * x2 (ix2 ch j)) := by
  unfold gateV
  show Ideal.logistic (matmul dot_S4x16_S256x16_S4x256_1_1_0_0_n_n none hd x2 (constant S4x256 .f32 0x00000000#32) (ix2 b ch)) = _
  exact congrArg Ideal.logistic (Cert.LibTransposedMatmul.matmul_zero_apply 4 16 256 none hd x2 b ch)

theorem spreadV_apply (g : FVec Ideal S4x256 .f32) (b : Fin 4) (h w : Fin 56) (ch : Fin 256) :
    spreadV g (ix4 b h w ch) = g (ix2 b ch) := by
  unfold spreadV
  refine (broadcastTo_apply _ broadcasts_S4x1x1x256_S4x56x56x256 (ix4 b h w ch) (ix4 b (0 : Fin 1) (0 : Fin 1) ch) fun a => ?_).trans ?_
  · match a with
    | ⟨0, _⟩ => rfl
    | ⟨1, _⟩ => rfl
    | ⟨2, _⟩ => rfl
    | ⟨3, _⟩ => rfl
  · refine shapeCast_apply g shapeCasts_S4x256_S4x1x1x256 (ix4 b (0 : Fin 1) (0 : Fin 1) ch) (ix2 b ch) ?_
    rw [Shape.rowMajor_val_two, Shape.rowMajor_val_four]
    show b.val * 256 + ch.val = ((b.val * 1 + 0) * 1 + 0) * 256 + ch.val
    omega

/-! ## The stored value at an index -/

/-- The stored value at (b, h, w, ch): the block's entry there times the gate of sample `b`, channel `ch`. -/
theorem pay_apply (x0 : Vec Ideal S4x56x56x256 .f32) (x1 : Vec Ideal S16x256 .f32) (x2 : Vec Ideal S256x16 .f32)
    (b : Fin 4) (h w : Fin 56) (ch : Fin 256) :
    k0_pay1 (F := Ideal) x0 x1 x2 (ix4 b h w ch) = x0 (ix4 b h w ch) * gateB x0 x1 x2 b ch := by
  rw [pay_eq, shapeCast_self]
  show x0 (ix4 b h w ch) * spreadV (gateV (hiddenV (pooledV x0) x1) x2) (ix4 b h w ch) = _
  rw [spreadV_apply, gateV_apply]
  unfold gateB
  refine congrArg (fun s => x0 (ix4 b h w ch) * Ideal.logistic s) (Finset.sum_congr rfl fun j _ => ?_)
  rw [hiddenV_apply]
  unfold hiddenB
  refine congrArg (fun s => max s 0 * x2 (ix2 ch j)) (Finset.sum_congr rfl fun k _ => ?_)
  rw [pooledV_apply]

end Cert.KernelIdeal.KValue

end
-- ==== Proof.KernelValueArray.lean ====
/-
  The output array after the region, as one function of the arrays the region finds.

  The region works on the activations laid out [32, 56, 56, 256] (sample, row, column, channel). Grid point t loads
  samples 4t .. 4t + 3 whole (its block's row b is the array's row 4t + b, the other three coordinates unchanged) and
  both weight arrays whole, and writes back, at the same samples, every entry times the gate of its sample and channel.
  The gate of a sample depends on that sample's entries only, all of which are in the block, so what point t writes is
  the block of ONE function `GT` of the whole arrays; the eight blocks tile the output (sample n lies in block n / 4),
  so the output array ends holding `GT`.
-/
import proofs.«136967_g2000605387723184_pallasbulk_480_9_alg».proof.Proof.Gen.KernelIdeal.Frame
import proofs.«136967_g2000605387723184_pallasbulk_480_9_alg».proof.Proof.KernelValuePayload
import Idealize.ShloMosaic.Lib.Pipeline.Value
import Idealize.ShloMosaic.Lib.ValueIdx

noncomputable section

open scoped BigOperators

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen

/-! ## The gated activations in the region's layout -/

/-- The pooled value of sample `n`, channel `k`. -/
def poolT (y : S32x56x56x256.Idx → EReal) (n : Fin 32) (k : Fin 256) : EReal :=
  (∑ h' : Fin 56, ∑ w' : Fin 56, y (ix4 n h' w' k)) * Cert.Spec.inv

/-- The hidden unit `j` of sample `n`. -/
def hiddenT (y : S32x56x56x256.Idx → EReal) (w1 : S16x256.Idx → EReal) (n : Fin 32) (j : Fin 16) : EReal :=
  max (∑ k : Fin 256, poolT y n k * w1 (ix2 j k)) 0

/-- The gate of sample `n`, channel `ch`. -/
def gateT (y : S32x56x56x256.Idx → EReal) (w1 : S16x256.Idx → EReal) (w2 : S256x16.Idx → EReal) (n : Fin 32) (ch : Fin 256) : EReal :=
  Ideal.logistic (∑ j : Fin 16, hiddenT y w1 n j * w2 (ix2 ch j))

/-- Every entry times the gate of its sample (first coordinate) and channel (last coordinate). -/
def GT (y : S32x56x56x256.Idx → EReal) (w1 : S16x256.Idx → EReal) (w2 : S256x16.Idx → EReal) : S32x56x56x256.Idx → EReal :=
  fun i => y i * gateT y w1 w2 (i 0) (i 3)

/-- Row `b` of block `T` is sample `4T + b`. -/
def row (T : Fin 8) (b : Fin 4) : Fin 32 := ⟨4 * T.val + b.val, by have := T.isLt; have := b.isLt; omega⟩

/-! ## One grid point, over plain arrays -/

/-- If the block `x0` is rows `4T .. 4T + 3` of `y`, the body's stored value at (b, h, w, ch) is `GT` at (4T + b, h, w, ch). -/
theorem point_ix (y : S32x56x56x256.Idx → EReal) (w1 : S16x256.Idx → EReal) (w2 : S256x16.Idx → EReal)
    (x0 : Vec Ideal S4x56x56x256 .f32) (T : Fin 8)
    (h0 : ∀ (b : Fin 4) (h w : Fin 56) (ch : Fin 256), x0 (ix4 b h w ch) = y (ix4 (row T b) h w ch))
    (b : Fin 4) (h w : Fin 56) (ch : Fin 256) :
    k0_pay1 (F := Ideal) x0 w1 w2 (ix4 b h w ch) = GT y w1 w2 (ix4 (row T b) h w ch) := by
  rw [pay_apply]
  show _ = y (ix4 (row T b) h w ch) * gateT y w1 w2 (row T b) ch
  rw [h0]
  refine congrArg (y (ix4 (row T b) h w ch) * ·) ?_
  unfold gateB gateT hiddenB hiddenT poolB poolT
  simp only [h0]

/-- The same for indices given by their coordinates' values. -/
theorem point_eq (y : S32x56x56x256.Idx → EReal) (w1 : S16x256.Idx → EReal) (w2 : S256x16.Idx → EReal)
    (x0 : Vec Ideal S4x56x56x256 .f32) (x1 : Vec Ideal S16x256 .f32) (x2 : Vec Ideal S256x16 .f32) (T : ℕ) (hT : T < 8)
    (h0 : ∀ (p : S4x56x56x256.Idx) (q : S32x56x56x256.Idx), (q 0).val = 4 * T + (p 0).val → (q 1).val = (p 1).val →
      (q 2).val = (p 2).val → (q 3).val = (p 3).val → x0 p = y q)
    (h1 : x1 = w1) (h2 : x2 = w2)
    (j : S4x56x56x256.Idx) (i : S32x56x56x256.Idx) (hi0 : (i 0).val = 4 * T + (j 0).val) (hi1 : (i 1).val = (j 1).val)
    (hi2 : (i 2).val = (j 2).val) (hi3 : (i 3).val = (j 3).val) :
    k0_pay1 (F := Ideal) x0 x1 x2 j = GT y w1 w2 i := by
  subst h1 h2
  obtain ⟨b, h, w, ch, rfl⟩ : ∃ (b : Fin 4) (h w : Fin 56) (ch : Fin 256), j = ix4 b h w ch := ⟨j 0, j 1, j 2, j 3, eq_ix4 j⟩
  have ei : i = ix4 (row ⟨T, hT⟩ b) h w ch := by
    rw [eq_ix4 i]
    congr 1
    · exact Fin.ext hi0
    · exact Fin.ext hi1
    · exact Fin.ext hi2
    · exact Fin.ext hi3
  rw [ei]
  exact point_ix y x1 x2 x0 ⟨T, hT⟩ (fun b h w ch => h0 _ _ rfl rfl rfl rfl) b h w ch

/-! ## The windows' blocks -/

variable (m : (ℓ : Loc nD τ sig) → Buf (Elt Ideal) ℓ)

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The printed index maps, decided over the grid: windows 0 and 3 are at block (t, 0, 0, 0), windows 1 and 2 at (0, 0). -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

/-- Window 0's block at point `t` is rows `4t .. 4t + 3` of its array. -/
theorem iblk0_apply (c : Dev nD) (t : Fin cfg0.N) (x : S4x56x56x256.Idx) (k : S32x56x56x256.Idx)
    (hk0 : (k 0).val = 4 * t.val + (x 0).val) (hk1 : (k 1).val = (x 1).val) (hk2 : (k 2).val = (x 2).val) (hk3 : (k 3).val = (x 3).val) :
    (iblk m c 0 t : Vec Ideal S4x56x56x256 .f32) x = (V m c main_v0 : S32x56x56x256.Idx → EReal) k := by
  obtain ⟨e0, e1, e2, e3, -⟩ := idx_facts t
  unfold iblk
  rw [View.read_apply]
  refine congrArg (V m c main_v0 : S32x56x56x256.Idx → EReal) (funext fun a => Fin.ext ?_)
  match a with
  | ⟨0, _⟩ => show win0_0.index t (0 : Fin 4) * 4 + 1 * (x 0).val = (k 0).val; rw [e0, hk0]; omega
  | ⟨1, _⟩ => show win0_0.index t (1 : Fin 4) * 56 + 1 * (x 1).val = (k 1).val; rw [e1, hk1]; omega
  | ⟨2, _⟩ => show win0_0.index t (2 : Fin 4) * 56 + 1 * (x 2).val = (k 2).val; rw [e2, hk2]; omega
  | ⟨3, _⟩ => show win0_0.index t (3 : Fin 4) * 256 + 1 * (x 3).val = (k 3).val; rw [e3, hk3]; omega

/-- Window 1's block at every point is its whole array. -/
theorem iblk1_eq (c : Dev nD) (t : Fin cfg0.N) :
    (iblk m c 1 t : Vec Ideal S16x256 .f32) = (V m c main_arg1 : S16x256.Idx → EReal) := by
  obtain ⟨-, -, -, -, e0, e1, -⟩ := idx_facts t
  funext x
  unfold iblk
  rw [View.read_apply]
  refine congrArg (V m c main_arg1 : S16x256.Idx → EReal) (funext fun a => Fin.ext ?_)
  match a with
  | ⟨0, _⟩ => show win0_1.index t (0 : Fin 2) * 16 + 1 * (x 0).val = (x 0).val; rw [e0]; omega
  | ⟨1, _⟩ => show win0_1.index t (1 : Fin 2) * 256 + 1 * (x 1).val = (x 1).val; rw [e1]; omega

/-- Window 2's block at every point is its whole array. -/
theorem iblk2_eq (c : Dev nD) (t : Fin cfg0.N) :
    (iblk m c 2 t : Vec Ideal S256x16 .f32) = (V m c main_arg2 : S256x16.Idx → EReal) := by
  obtain ⟨-, -, -, -, -, -, e0, e1, -⟩ := idx_facts t
  funext x
  unfold iblk
  rw [View.read_apply]
  refine congrArg (V m c main_arg2 : S256x16.Idx → EReal) (funext fun a => Fin.ext ?_)
  match a with
  | ⟨0, _⟩ => show win0_2.index t (0 : Fin 2) * 256 + 1 * (x 0).val = (x 0).val; rw [e0]; omega
  | ⟨1, _⟩ => show win0_2.index t (1 : Fin 2) * 16 + 1 * (x 1).val = (x 1).val; rw [e1]; omega

/-! ## What a point writes back, and the array after the region -/

/-- What point `t` writes back is block `t` of `GT` of the arrays as the region finds them. -/
theorem flushed3_eq (c : Dev nD) (t : Fin cfg0.N) :
    (dats m 0 c).flushed 3 t
      = ((cfg0.win 3).blk t).view.read (Elt Ideal) (GT (V m c main_v0) (V m c main_arg1) (V m c main_arg2)) := by
  show (cfg0.win 3).cut (grid0.coords t) ((dats m 0 c).after 3 t) = _
  rw [after0_3]
  unfold out0_3
  rw [View.canon_unit_zero hz4]
  simp only [View.ld_unit_zero (S := S4x56x56x256) hz4, View.ld_unit_zero (S := S16x256) hz2, View.ld_unit_zero (S := S256x16) hz2]
  obtain ⟨-, -, -, -, -, -, -, -, e0, e1, e2, e3⟩ := idx_facts t
  have hT : t.val < 8 := lt_of_lt_of_eq t.isLt N_0
  funext j
  show k0_pay1 (F := Ideal) (iblk m c 0 t) (iblk m c 1 t) (iblk m c 2 t) j
      = GT (V m c main_v0) (V m c main_arg1) (V m c main_arg2) (((cfg0.win 3).blk t).view.emb j)
  refine point_eq (V m c main_v0) (V m c main_arg1) (V m c main_arg2) (iblk m c 0 t) (iblk m c 1 t) (iblk m c 2 t) t.val hT
    (fun p q q0 q1 q2 q3 => iblk0_apply m c t p q q0 q1 q2 q3) (iblk1_eq m c t) (iblk2_eq m c t) j (((cfg0.win 3).blk t).view.emb j) ?_ ?_ ?_ ?_
  · show win0_3.index t (0 : Fin 4) * 4 + 1 * (j 0).val = 4 * t.val + (j 0).val; rw [e0]; omega
  · show win0_3.index t (1 : Fin 4) * 56 + 1 * (j 1).val = (j 1).val; rw [e1]; omega
  · show win0_3.index t (2 : Fin 4) * 56 + 1 * (j 2).val = (j 2).val; rw [e2]; omega
  · show win0_3.index t (3 : Fin 4) * 256 + 1 * (j 3).val = (j 3).val; rw [e3]; omega

/-- An index of the array is in point `t`'s block iff each coordinate is in the block's range on its axis. -/
theorem mem_blk3 (t : Fin cfg0.N) (i : S32x56x56x256.Idx) :
    i ∈ ((cfg0.win 3).blk t).view.set ↔ ∀ a : Fin 4, win0_3.index t a * S4x56x56x256.size a ≤ (i a).val
      ∧ (i a).val < win0_3.index t a * S4x56x56x256.size a + S4x56x56x256.size a := by
  show i ∈ ((View.whole main_v1).slice (win0_3.rect t)).set ↔ _
  rw [View.set_slice_whole, Rect.mem_set_unit]
  exact Iff.rfl

/-- Every index of the output array is in some point's block: sample `n` is in block `n / 4`. -/
theorem cover3 (i : S32x56x56x256.Idx) :
    ∃ t : Fin cfg0.N, (cfg0.win 3).flush t = true ∧ i ∈ ((cfg0.win 3).blk t).view.set := by
  have hi0 : (i 0).val < 32 := (i 0).isLt
  have hi1 : (i 1).val < 56 := (i 1).isLt
  have hi2 : (i 2).val < 56 := (i 2).isLt
  have hi3 : (i 3).val < 256 := (i 3).isLt
  obtain ⟨t, ht⟩ : ∃ t : Fin cfg0.N, t.val = (i 0).val / 4 := ⟨⟨(i 0).val / 4, by rw [show cfg0.N = 8 from N_0]; omega⟩, rfl⟩
  obtain ⟨-, -, -, -, -, -, -, -, e0, e1, e2, e3⟩ := idx_facts t
  refine ⟨t, flush0_3 t, ?_⟩
  rw [mem_blk3]
  intro a
  match a with
  | ⟨0, _⟩ => show win0_3.index t (0 : Fin 4) * 4 ≤ (i 0).val ∧ (i 0).val < win0_3.index t (0 : Fin 4) * 4 + 4; rw [e0]; omega
  | ⟨1, _⟩ => show win0_3.index t (1 : Fin 4) * 56 ≤ (i 1).val ∧ (i 1).val < win0_3.index t (1 : Fin 4) * 56 + 56; rw [e1]; omega
  | ⟨2, _⟩ => show win0_3.index t (2 : Fin 4) * 56 ≤ (i 2).val ∧ (i 2).val < win0_3.index t (2 : Fin 4) * 56 + 56; rw [e2]; omega
  | ⟨3, _⟩ => show win0_3.index t (3 : Fin 4) * 256 ≤ (i 3).val ∧ (i 3).val < win0_3.index t (3 : Fin 4) * 256 + 256; rw [e3]; omega

/-- The output array after the region is `GT` of the arrays as the region finds them. -/
theorem final3 (c : Dev nD) :
    (dats m 0 c).arrAt 3 cfg0.N = GT (V m c main_v0) (V m c main_arg1) (V m c main_arg2) :=
  (dats m 0 c).arrAt_eq_of_cover 3 (GT (V m c main_v0) (V m c main_arg1) (V m c main_arg2)) (fun t _ => flushed3_eq m c t) cover3

end Cert.KernelIdeal.KValue

end
-- ==== Proof.KernelValueLayout.lean ====
/-
  The two transposes around the region.

  The program moves the channel axis last before the region (entry (n, h, w, c) of the moved array is entry (n, c, h, w)
  of the argument) and moves it back after it (entry (n, c, h, w) of the result is entry (n, h, w, c) of the region's
  output). The gated activations `GT` in the region's layout, of the moved argument, moved back, are the gated
  activations `Cert.Spec.G` of the argument: the pooled sums run over the same 56 x 56 entries in the same order.
-/
import proofs.«136967_g2000605387723184_pallasbulk_480_9_alg».proof.Proof.KernelValueArray
import proofs.«136967_g2000605387723184_pallasbulk_480_9_alg».proof.Proof.Spec
import Idealize.ShloMosaic.Lib.Pipeline.Value
import Idealize.ShloMosaic.Lib.ValueIdx

noncomputable section

open scoped BigOperators

namespace Cert.KernelIdeal.KValue

open Idealize.ShloMosaic Idealize.ShloMosaic.ValueIdx
open Cert.KernelIdeal Cert.KernelIdeal.Gen

/-- The channel axis moved last, read at an index. -/
theorem toLast_apply (x : S32x256x56x56.Idx → EReal) (n : Fin 32) (h w : Fin 56) (k : Fin 256) :
    transpose S32x56x56x256 [0, 2, 3, 1] x transposes_S32x256x56x56_S32x56x56x256_0_2_3_1 (ix4 n h w k) = x (ix4 n k h w) :=
  transpose_apply [0, 2, 3, 1] x transposes_S32x256x56x56_S32x56x56x256_0_2_3_1 (ix4 n h w k) (ix4 n k h w) fun b => by
    match b with
    | ⟨0, _⟩ => rfl
    | ⟨1, _⟩ => rfl
    | ⟨2, _⟩ => rfl
    | ⟨3, _⟩ => rfl

/-- The channel axis moved back, read at an index. -/
theorem fromLast_apply (y : S32x56x56x256.Idx → EReal) (n : Fin 32) (k : Fin 256) (h w : Fin 56) :
    transpose S32x256x56x56 [0, 3, 1, 2] y transposes_S32x56x56x256_S32x256x56x56_0_3_1_2 (ix4 n k h w) = y (ix4 n h w k) :=
  transpose_apply [0, 3, 1, 2] y transposes_S32x56x56x256_S32x256x56x56_0_3_1_2 (ix4 n k h w) (ix4 n h w k) fun b => by
    match b with
    | ⟨0, _⟩ => rfl
    | ⟨1, _⟩ => rfl
    | ⟨2, _⟩ => rfl
    | ⟨3, _⟩ => rfl

/-- The region's function of the moved argument, moved back, is the gated activations of the argument. -/
theorem fromLast_GT_toLast (x : S32x256x56x56.Idx → EReal) (w1 : S16x256.Idx → EReal) (w2 : S256x16.Idx → EReal) :
    transpose S32x256x56x56 [0, 3, 1, 2]
        (GT (transpose S32x56x56x256 [0, 2, 3, 1] x transposes_S32x256x56x56_S32x56x56x256_0_2_3_1) w1 w2)
        transposes_S32x56x56x256_S32x256x56x56_0_3_1_2
      = Cert.Spec.G x w1 w2 := by
  funext i
  obtain ⟨n, k, h, w, rfl⟩ : ∃ (n : Fin 32) (k : Fin 256) (h w : Fin 56), i = ix4 n k h w := ⟨i 0, i 1, i 2, i 3, eq_ix4 i⟩
  rw [fromLast_apply, Cert.Spec.G_apply]
  show transpose S32x56x56x256 [0, 2, 3, 1] x transposes_S32x256x56x56_S32x56x56x256_0_2_3_1 (ix4 n h w k)
      * gateT (transpose S32x56x56x256 [0, 2, 3, 1] x transposes_S32x256x56x56_S32x56x56x256_0_2_3_1) w1 w2 n k = _
  rw [toLast_apply]
  refine congrArg (x (ix4 n k h w) * ·) ?_
  unfold gateT hiddenT poolT Cert.Spec.gate Cert.Spec.hidden Cert.Spec.pooled
  refine congrArg Ideal.logistic (Finset.sum_congr rfl fun j _ => ?_)
  refine congrArg (fun s => max s 0 * w2 (ix2 k j)) (Finset.sum_congr rfl fun c _ => ?_)
  refine congrArg (fun s => s * Cert.Spec.inv * w1 (ix2 j c)) (Finset.sum_congr rfl fun h' _ => Finset.sum_congr rfl fun w' _ => ?_)
  exact toLast_apply x n h' w' c

end Cert.KernelIdeal.KValue

end
-- ==== Proof.KernelValue.lean ====
/-
  The idealized kernel's run, read.

  The program moves the channel axis of the activations last, runs one region over eight grid points, and moves the
  channel axis of the region's output back. The region's output array is the gated activations in the region's layout
  of the arrays the region finds (the moved activations and the two weight arrays as launched); moved back, that is
  the gated activations `Cert.Spec.G` of the three argument arrays. The arguments end unchanged.
-/
import proofs.«136967_g2000605387723184_pallasbulk_480_9_alg».proof.Proof.Gen.KernelIdeal.Frame
import proofs.«136967_g2000605387723184_pallasbulk_480_9_alg».proof.Proof.Spec
import proofs.«136967_g2000605387723184_pallasbulk_480_9_alg».proof.Proof.KernelValueArray
import proofs.«136967_g2000605387723184_pallasbulk_480_9_alg».proof.Proof.KernelValueLayout
import Idealize.ShloMosaic.Lib.Pipeline.Value
import Idealize.ShloMosaic.Lib.ValueIdx
import Idealize.ShloMosaic.PureOps.Ideal.Laws

noncomputable section

open scoped BigOperators

namespace Cert.KernelIdeal.KValue

open Idealize.ShloMosaic Idealize.ShloMosaic.TcCoe Idealize.ShloMosaic.ValueIdx Idealize.SL.Sem
open Cert.KernelIdeal

/-- The region finds, in its first window's array, the activations with the channel axis moved last. -/
theorem V_main_v0 (m : (ℓ : Loc nD τ sig) → Buf (Elt Ideal) ℓ) (c : Dev nD) :
    (Gen.V m c main_v0 : S32x56x56x256.Idx → EReal)
      = transpose S32x56x56x256 [0, 2, 3, 1] (m ((c.tc : Thread nD τ).loc main_arg0)) Gen.transposes_S32x256x56x56_S32x56x56x256_0_2_3_1 := by
  show StableHlo.after Gen.hostOps0 (fun b => m (c, b)) (Proc.devRef .tc main_v0) = _
  after_results

/-- After the region, the result array is the region's output array with the channel axis moved back. -/
theorem tail_main_v2 (m : (ℓ : Loc nD τ sig) → Buf (Elt Ideal) ℓ) (c : Dev nD) :
    (Pipeline.afterTail₀ cfgs (Gen.dats m) 0 (Gen.V0 m) [Gen.hostOps1] c main_v2 : S32x256x56x56.Idx → EReal)
      = transpose S32x256x56x56 [0, 3, 1, 2] ((Gen.dats m 0 c).arrAt 3 cfg0.N) Gen.transposes_S32x56x56x256_S32x256x56x56_0_3_1_2 := by
  unfold Pipeline.afterTail₀
  show StableHlo.after Gen.hostOps1 _ (Proc.devRef .tc main_v2) = _
  after_results
  rw [Pipeline.withArrays_arr spec0 Gen.launch0.win.arr_inj c _ _ 3]

/-- The result array after the run is the gated activations of the arguments. -/
theorem result_eq (m : (ℓ : Loc nD τ sig) → Buf (Elt Ideal) ℓ) (c : Dev nD) :
    (Pipeline.afterTail₀ cfgs (Gen.dats m) 0 (Gen.V0 m) [Gen.hostOps1] c main_v2 : S32x256x56x56.Idx → EReal)
      = Cert.Spec.G (m ((c.tc : Thread nD τ).loc main_arg0)) (m ((c.tc : Thread nD τ).loc main_arg1)) (m ((c.tc : Thread nD τ).loc main_arg2)) := by
  rw [tail_main_v2, final3, V_main_v0, Gen.V_main_arg1, Gen.V_main_arg2]
  exact fromLast_GT_toLast _ _ _

/-- The idealized kernel's run: every weakly fair execution ends with the result array at the gated activations
    `Cert.Spec.G` of the three argument arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2)
        = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun r h c =>
      ⟨((h c).2 main_v2 (Pipeline.mem_restRefs_of main_v2 (by decide) (by decide))).trans (result_eq m c),
        ((h c).2 main_arg0 (Pipeline.mem_restRefs_of main_arg0 (by decide) (by decide))).trans (Gen.W_main_arg0 m (Gen.dats m) c),
        ((h c).1 1).trans (((Gen.dats m 0 c).arrAt_in 1 rfl _).trans ((Gen.A_eq m c 1).trans (Gen.V_main_arg1 m c))),
        ((h c).1 2).trans (((Gen.dats m 0 c).arrAt_in 2 rfl _).trans ((Gen.A_eq m c 2).trans (Gen.V_main_arg2 m c)))⟩)
    (Gen.run_main m ρ)

end Cert.KernelIdeal.KValue

end
-- ==== Proof.RefChain.lean ====
/-
  The reference program's buffers at the boundaries between its host stretches and its three pipelines, each as the
  host operations' term of what came before:
  - when the pooling pipeline is entered, its input array is the activations reshaped to [32, 256, 3136] and padded
    with the converted integer zero to [32, 256, 4096], and the two weight arrays are the transposed arguments
    (each through a pad of no width);
  - the small-products pipeline is entered with the pooling pipeline's output reshaped to [32, 256] and the two
    transposed weights untouched;
  - the gating pipeline is entered with the small-products pipeline's output reshaped to [32, 256, 1] and the padded
    activations untouched (the pooling pipeline only read them);
  - the result is the gating pipeline's output sliced back to 3136 positions and reshaped to [32, 256, 56, 56].
-/
import proofs.«136967_g2000605387723184_pallasbulk_480_9_alg».proof.Proof.Gen.ReferenceIdeal.Frame
import Idealize.ShloMosaic.Lib.StableHlo.Run
import Idealize.ShloMosaic.Lib.ValueIdx

set_option maxRecDepth 16384

noncomputable section

open scoped BigOperators

namespace Cert.ReferenceIdeal.RValue

open Idealize.ShloMosaic Idealize.ShloMosaic.TcCoe Idealize.ShloMosaic.ValueIdx Idealize.SL.Sem
open Cert.ReferenceIdeal Cert.ReferenceIdeal.Gen

variable (m : (ℓ : Loc nD τ sig) → Buf (Elt Ideal) ℓ) (ρ : Dev nD → PrngReg) (c : Dev nD)

/-! ## At the entry of the pooling pipeline -/

set_option maxHeartbeats 400000 in
/-- The padded activations: the argument reshaped to [32, 256, 3136], then padded by 960 positions on the last axis. -/
theorem V6_v1 : (V6 m ρ c main_v1 : S32x256x4096.Idx → EReal)
    = pad S32x256x4096 ![0, 0, 0] ![0, 0, 960] ![0, 0, 0]
        (shapeCast S32x256x3136 (m ((c : Thread nD τ).loc main_arg0)) shapeCasts_S32x256x56x56_S32x256x3136)
        (sitofp (F := Ideal) .f32 (constantI S_ 32 0#32)) pads_S32x256x3136_S32x256x4096_000_000_09600 h_S_ := by
  dsimp only [V6, W6, W5, W4, W3, W2, W1, W0, hostOps0, hostOps0_1, hostOps0_2, hostOps0_3, hostOps0_4, hostOps0_5]
  after_results
  rfl

set_option maxHeartbeats 400000 in
/-- The first weight array transposed to [256, 16] (through a pad of no width). -/
theorem V6_v3 : (V6 m ρ c main_v3 : S256x16.Idx → EReal)
    = pad S256x16 ![0, 0] ![0, 0] ![0, 0]
        (transpose S256x16 [1, 0] (m ((c : Thread nD τ).loc main_arg1)) transposes_S16x256_S256x16_1_0)
        (sitofp (F := Ideal) .f32 (constantI S_ 32 0#32)) pads_S256x16_S256x16_000_000 h_S_ := by
  dsimp only [V6, W6, W5, W4, W3, W2, W1, W0, hostOps0, hostOps0_1, hostOps0_2, hostOps0_3, hostOps0_4, hostOps0_5]
  after_results
  rfl

set_option maxHeartbeats 400000 in
/-- The second weight array transposed to [16, 256] (through a pad of no width). -/
theorem V6_v5 : (V6 m ρ c main_v5 : S16x256.Idx → EReal)
    = pad S16x256 ![0, 0] ![0, 0] ![0, 0]
        (transpose S16x256 [1, 0] (m ((c : Thread nD τ).loc main_arg2)) transposes_S256x16_S16x256_1_0)
        (sitofp (F := Ideal) .f32 (constantI S_ 32 0#32)) pads_S16x256_S16x256_000_000 h_S_ := by
  dsimp only [V6, W6, W5, W4, W3, W2, W1, W0, hostOps0, hostOps0_1, hostOps0_2, hostOps0_3, hostOps0_4, hostOps0_5]
  after_results
  rfl

/-! ## At the entry of the small-products pipeline -/

set_option maxHeartbeats 400000 in
/-- The pooled array: the pooling pipeline's output [32, 256, 1] reshaped to [32, 256]. -/
theorem V8_v7 : (V8 m ρ c main_v7 : S32x256.Idx → EReal)
    = shapeCast S32x256 ((dat0 (V6 m ρ) c).arrAt 1 cfg0.N : S32x256x1.Idx → EReal) shapeCasts_S32x256x1_S32x256 := by
  dsimp only [V8, W8, hostOps1]
  after_results
  rw [show W7 m ρ c (Proc.devRef .tc main_v6) = _ from W7_arr m ρ c 1]
  rfl

set_option maxHeartbeats 400000 in
/-- The transposed first weights are as the pooling pipeline found them. -/
theorem V8_v3 : V8 m ρ c main_v3 = V6 m ρ c main_v3 := by
  dsimp only [V8, W8, hostOps1, V6]
  after_results
  exact W7_of_ne m ρ c main_v3 (by decide)

set_option maxHeartbeats 400000 in
/-- The transposed second weights are as the pooling pipeline found them. -/
theorem V8_v5 : V8 m ρ c main_v5 = V6 m ρ c main_v5 := by
  dsimp only [V8, W8, hostOps1, V6]
  after_results
  exact W7_of_ne m ρ c main_v5 (by decide)

/-! ## At the entry of the gating pipeline -/

set_option maxHeartbeats 400000 in
/-- The scale array: the small-products pipeline's output [32, 256] reshaped to [32, 256, 1]. -/
theorem V10_v9 : (V10 m ρ c main_v9 : S32x256x1.Idx → EReal)
    = shapeCast S32x256x1 ((dat1 (V8 m ρ) c).arrAt 3 cfg1.N : S32x256.Idx → EReal) shapeCasts_S32x256_S32x256x1 := by
  dsimp only [V10, W10, hostOps2]
  after_results
  rw [show W9 m ρ c (Proc.devRef .tc main_v8) = _ from W9_arr m ρ c 3]
  rfl

set_option maxHeartbeats 400000 in
/-- The padded activations are as the pooling pipeline found them: it only read them, and nothing since wrote them. -/
theorem V10_v1 : V10 m ρ c main_v1 = V6 m ρ c main_v1 := by
  dsimp only [V10, W10, hostOps2]
  after_results
  rw [W9_of_ne m ρ c main_v1 (by decide)]
  dsimp only [W8, hostOps1]
  after_results
  rw [show W7 m ρ c (Proc.devRef .tc main_v1) = _ from W7_arr m ρ c 0]
  exact ((dat0 (V6 m ρ) c).arrAt_in 0 rfl _).trans (A_eq0 (V6 m ρ) c 0)

/-! ## The result -/

set_option maxHeartbeats 400000 in
/-- The result buffer: the gating pipeline's output sliced to its first 3136 positions and reshaped to [32, 256, 56, 56]. -/
theorem W12_v12 : (W12 m ρ c (Proc.devRef .tc main_v12) : S32x256x56x56.Idx → EReal)
    = shapeCast S32x256x56x56 (extractStridedSlice S32x256x3136 ![0, 0, 0]
        ((dat2 (V10 m ρ) c).arrAt 2 cfg2.N : S32x256x4096.Idx → EReal) slices_S32x256x4096_S32x256x3136_0_0_0)
        shapeCasts_S32x256x3136_S32x256x56x56 := by
  dsimp only [W12, hostOps3]
  after_results
  rw [show W11 m ρ c (Proc.devRef .tc main_v10) = _ from W11_arr m ρ c 2]
  rfl

end Cert.ReferenceIdeal.RValue

end
-- ==== Proof.LibPaddedPlaneSum.lean ====
/-
  A sum over a zero-padded, flattened plane is the double sum over the plane.

  An axis of 4096 positions holds a 56 x 56 plane row by row in its first 3136 positions (position 56 * h + w holds
  entry (h, w)) and zeros after them. The sum over the 4096 positions is then the sum over h and w of the entries:
  the positions past the plane add zeros, and the first 3136 positions are the pairs (h, w) in row-major order.
  Stated for any additive commutative monoid and any extents a x b padded to a * b + p; no finiteness is used.
-/
import Mathlib.Algebra.BigOperators.Fin
import Mathlib.Logic.Equiv.Fin.Basic

open scoped BigOperators

namespace Cert.PaddedPlane

/-- The sum over `a * b + p` positions of a function that holds `g h w` at position `b * h + w` and `0` at
    every position from `a * b` on is the double sum of `g`. -/
theorem sum_eq {M : Type*} [AddCommMonoid M] {a b p N : ℕ} (hN : a * b + p = N) (f : Fin N → M) (g : Fin a → Fin b → M)
    (hin : ∀ (h : Fin a) (w : Fin b) (hq : b * h.val + w.val < N), f ⟨b * h.val + w.val, hq⟩ = g h w)
    (hout : ∀ q : Fin N, a * b ≤ q.val → f q = 0) :
    ∑ q : Fin N, f q = ∑ h : Fin a, ∑ w : Fin b, g h w := by
  subst hN
  rw [Fin.sum_univ_add]
  have e2 : ∑ i : Fin p, f (Fin.natAdd (a * b) i) = 0 :=
    Finset.sum_eq_zero fun i _ => hout _ (by simp [Fin.natAdd])
  rw [e2, add_zero, ← Fintype.sum_prod_type' (f := g)]
  refine (Fintype.sum_equiv finProdFinEquiv _ _ fun x => ?_).symm
  obtain ⟨h, w⟩ := x
  have hlt : b * h.val + w.val < a * b + p := by
    have := h.isLt; have := w.isLt
    have h1 : b * (h.val + 1) ≤ b * a := Nat.mul_le_mul_left b (by omega)
    have h2 : b * (h.val + 1) = b * h.val + b := Nat.mul_succ _ _
    have h3 : b * a = a * b := Nat.mul_comm _ _
    omega
  show g h w = _
  rw [← hin h w hlt]
  refine congrArg f (Fin.ext ?_)
  simp [finProdFinEquiv, Fin.castAdd]
  omega

end Cert.PaddedPlane
-- ==== Proof.RefValue.lean ====
/-
  The reference program's result is the gated activations `Cert.Spec.G` of its three arguments, GIVEN what each of
  its three pipelines leaves in its output array (the three hypotheses `hpool`, `hmlp`, `hgate`, proved in their own
  modules): the entry (n, ch, h, w) of the result is position 56 * h + w of the gating pipeline's output row (n, ch),
  which is the padded activation there — the argument's entry (n, ch, h, w) — times the scale (n, ch); the scale is
  the logistic function of the small products over the pooled row n; and the pooled entry (n, k) is the sum over the
  4096 padded positions of row (n, k) times the averaging factor, a sum that the padding's zeros leave equal to the
  sum over the 56 x 56 plane.
-/
import proofs.«136967_g2000605387723184_pallasbulk_480_9_alg».proof.Proof.RefChain
import proofs.«136967_g2000605387723184_pallasbulk_480_9_alg».proof.Proof.Spec
import proofs.«136967_g2000605387723184_pallasbulk_480_9_alg».proof.Proof.LibPaddedPlaneSum
import Idealize.ShloMosaic.Lib.Pipeline.Value
import Idealize.ShloMosaic.Lib.KernelVsHost
import Idealize.ShloMosaic.Lib.ValueIdx
import Idealize.ShloMosaic.PureOps.Ideal.Laws

set_option maxRecDepth 16384

noncomputable section

open scoped BigOperators

namespace Cert.ReferenceIdeal.RValue

open Idealize.ShloMosaic Idealize.ShloMosaic.TcCoe Idealize.ShloMosaic.ValueIdx Idealize.SL.Sem
open Cert.ReferenceIdeal Cert.ReferenceIdeal.Gen

variable (m : (ℓ : Loc nD τ sig) → Buf (Elt Ideal) ℓ) (ρ : Dev nD → PrngReg) (c : Dev nD)

/-! ## The padded activations and the transposed weights, read at an index -/

/-- The padding value, the integer zero converted, is the real zero. -/
theorem padval_eq : sitofp (F := Ideal) .f32 (constantI S_ 32 0#32) (Shape.Idx.first h_S_) = (0 : EReal) := by
  show (((0#32 : BitVec 32).toInt : ℝ) : EReal) = 0
  simp

/-- Inside the plane: position 56 * h + w of row (n, ch) of the padded activations is the argument's entry (n, ch, h, w). -/
theorem xp_inside (n : Fin 32) (ch : Fin 256) (h w : Fin 56) (hq : 56 * h.val + w.val < 4096) :
    V6 m ρ c main_v1 (ix3 n ch ⟨56 * h.val + w.val, hq⟩)
      = m ((c : Thread nD τ).loc main_arg0) (ix4 n ch h w) := by
  rw [V6_v1]
  have hq' : 56 * h.val + w.val < 3136 := by have := h.isLt; have := w.isLt; omega
  refine (pad_apply_of_inside _ _ _ _ _ _ _ _ (ix3 n ch (⟨56 * h.val + w.val, hq'⟩ : Fin 3136)) (fun a => ?_)).trans ?_
  · match a with
    | ⟨0, _⟩ => simp
    | ⟨1, _⟩ => simp
    | ⟨2, _⟩ => simp
  · refine shapeCast_apply _ _ _ (ix4 n ch h w) ?_
    rw [Shape.rowMajor_val_four, Shape.rowMajor_val_three]
    show ((n.val * 256 + ch.val) * 56 + h.val) * 56 + w.val = (n.val * 256 + ch.val) * 3136 + (56 * h.val + w.val)
    omega

/-- Past the plane: the padded activations are zero from position 3136 on. -/
theorem xp_outside (n : Fin 32) (ch : Fin 256) (q : Fin 4096) (hq : 3136 ≤ q.val) :
    V6 m ρ c main_v1 (ix3 n ch q) = (0 : EReal) := by
  rw [V6_v1]
  refine (pad_apply_of_not_inside _ _ _ _ _ _ _ _ (2 : Fin 3) (fun hin => ?_)).trans (padval_eq)
  have h3 : (q.val - 0) / (0 + 1) < 3136 := hin.2.2
  simp at h3
  omega

/-- So the sum over a padded row is the sum over the plane. -/
theorem sum_xp (xp : S32x256x4096.Idx → EReal) (hxp : V6 m ρ c main_v1 = xp)
    (x : S32x256x56x56.Idx → EReal) (hx : m ((c : Thread nD τ).loc main_arg0) = x) (n : Fin 32) (ch : Fin 256) :
    ∑ q : Fin 4096, xp (ix3 n ch q) = ∑ h : Fin 56, ∑ w : Fin 56, x (ix4 n ch h w) := by
  subst hxp hx
  exact Cert.PaddedPlane.sum_eq (a := 56) (b := 56) (p := 960) (by norm_num) _ _
    (fun h w hq => xp_inside m ρ c n ch h w hq) (fun q hq => xp_outside m ρ c n ch q hq)

/-- The first weights as the small-products pipeline finds them: entry (k, j) is the argument's entry (j, k). -/
theorem w1t_apply (k : Fin 256) (j : Fin 16) :
    V6 m ρ c main_v3 (ix2 k j)
      = m ((c : Thread nD τ).loc main_arg1) (ix2 j k) := by
  rw [V6_v3]
  refine (pad_apply_of_inside _ _ _ _ _ _ _ _ (ix2 k j) (fun a => ?_)).trans ?_
  · match a with
    | ⟨0, _⟩ => simp
    | ⟨1, _⟩ => simp
  · refine transpose_apply _ _ _ _ (ix2 j k) (fun b => ?_)
    match b with
    | ⟨0, _⟩ => rfl
    | ⟨1, _⟩ => rfl

/-- The second weights likewise: entry (j, ch) is the argument's entry (ch, j). -/
theorem w2t_apply (j : Fin 16) (ch : Fin 256) :
    V6 m ρ c main_v5 (ix2 j ch)
      = m ((c : Thread nD τ).loc main_arg2) (ix2 ch j) := by
  rw [V6_v5]
  refine (pad_apply_of_inside _ _ _ _ _ _ _ _ (ix2 j ch) (fun a => ?_)).trans ?_
  · match a with
    | ⟨0, _⟩ => simp
    | ⟨1, _⟩ => simp
  · refine transpose_apply _ _ _ _ (ix2 ch j) (fun b => ?_)
    match b with
    | ⟨0, _⟩ => rfl
    | ⟨1, _⟩ => rfl

/-! ## The three pipelines chained -/

section Chain

variable
  (hpool : ∀ (V : (c : Dev nD) → (b : Ref sig .tc) → Buf (Elt Ideal) ((c : Thread nD τ).loc b)) (c : Dev nD) (xp : S32x256x4096.Idx → EReal), V c main_v1 = xp → ∀ (n : Fin 32) (ch : Fin 256),
      ((dat0 (F := Ideal) V c).arrAt 1 cfg0.N : S32x256x1.Idx → EReal) (ix3 n ch (0 : Fin 1))
        = (∑ q : Fin 4096, xp (ix3 n ch q)) * Cert.Spec.inv)
  (hmlp : ∀ (V : (c : Dev nD) → (b : Ref sig .tc) → Buf (Elt Ideal) ((c : Thread nD τ).loc b)) (c : Dev nD) (p : S32x256.Idx → EReal) (a : S256x16.Idx → EReal) (b : S16x256.Idx → EReal),
      V c main_v7 = p → V c main_v3 = a → V c main_v5 = b → ∀ (n : Fin 32) (ch : Fin 256),
      ((dat1 (F := Ideal) V c).arrAt 3 cfg1.N : S32x256.Idx → EReal) (ix2 n ch)
        = Ideal.logistic (∑ j : Fin 16, max (∑ k : Fin 256, p (ix2 n k) * a (ix2 k j)) 0 * b (ix2 j ch)))
  (hgate : ∀ (V : (c : Dev nD) → (b : Ref sig .tc) → Buf (Elt Ideal) ((c : Thread nD τ).loc b)) (c : Dev nD) (xp : S32x256x4096.Idx → EReal) (s : S32x256x1.Idx → EReal),
      V c main_v1 = xp → V c main_v9 = s → ∀ (n : Fin 32) (ch : Fin 256) (q : Fin 4096),
      ((dat2 (F := Ideal) V c).arrAt 2 cfg2.N : S32x256x4096.Idx → EReal) (ix3 n ch q)
        = xp (ix3 n ch q) * s (ix3 n ch (0 : Fin 1)))

include hpool in
/-- The pooled array the small-products pipeline is entered with is the specification's pooled value. -/
theorem pooled_apply (n : Fin 32) (k : Fin 256) :
    V8 m ρ c main_v7 (ix2 n k)
      = Cert.Spec.pooled (m ((c : Thread nD τ).loc main_arg0)) n k := by
  rw [V8_v7]
  refine (shapeCast_apply _ _ _ (ix3 n k (0 : Fin 1)) ?_).trans ?_
  · rw [Shape.rowMajor_val_three, Shape.rowMajor_val_two]
    show (n.val * 256 + k.val) * 1 + 0 = n.val * 256 + k.val
    omega
  · rw [hpool (V6 m ρ) c _ rfl n k, sum_xp m ρ c _ rfl _ rfl n k]
    rfl

include hpool hmlp in
/-- The scale array the gating pipeline is entered with is the specification's gate. -/
theorem scale_apply (n : Fin 32) (ch : Fin 256) :
    V10 m ρ c main_v9 (ix3 n ch (0 : Fin 1))
      = Cert.Spec.gate (m ((c : Thread nD τ).loc main_arg0)) (m ((c : Thread nD τ).loc main_arg1))
          (m ((c : Thread nD τ).loc main_arg2)) n ch := by
  rw [V10_v9]
  refine (shapeCast_apply _ _ _ (ix2 n ch) ?_).trans ?_
  · rw [Shape.rowMajor_val_three, Shape.rowMajor_val_two]
    show n.val * 256 + ch.val = (n.val * 256 + ch.val) * 1 + 0
    omega
  · rw [hmlp (V8 m ρ) c _ _ _ rfl (V8_v3 m ρ c) (V8_v5 m ρ c) n ch]
    unfold Cert.Spec.gate Cert.Spec.hidden
    refine congrArg Ideal.logistic (Finset.sum_congr rfl fun j _ => ?_)
    rw [w2t_apply]
    refine congrArg (fun t => max t 0 * _) (Finset.sum_congr rfl fun k _ => ?_)
    rw [pooled_apply m ρ c hpool, w1t_apply]

include hpool hmlp hgate in
/-- The reference's result buffer is the gated activations of the three arguments. -/
theorem result_eq :
    W12 m ρ c (Proc.devRef .tc main_v12)
      = Cert.Spec.G (m ((c : Thread nD τ).loc main_arg0)) (m ((c : Thread nD τ).loc main_arg1))
          (m ((c : Thread nD τ).loc main_arg2)) := by
  rw [W12_v12]
  funext i
  obtain ⟨n, ch, h, w, rfl⟩ : ∃ (n : Fin 32) (ch : Fin 256) (h w : Fin 56), i = ix4 n ch h w := ⟨i 0, i 1, i 2, i 3, eq_ix4 i⟩
  have hq : 56 * h.val + w.val < 4096 := by have := h.isLt; have := w.isLt; omega
  have hq' : 56 * h.val + w.val < 3136 := by have := h.isLt; have := w.isLt; omega
  refine (shapeCast_apply _ _ _ (ix3 n ch (⟨56 * h.val + w.val, hq'⟩ : Fin 3136)) ?_).trans ?_
  · rw [Shape.rowMajor_val_four, Shape.rowMajor_val_three]
    show (n.val * 256 + ch.val) * 3136 + (56 * h.val + w.val) = ((n.val * 256 + ch.val) * 56 + h.val) * 56 + w.val
    omega
  refine (extractStridedSlice_apply _ _ _ _ (ix3 n ch (⟨56 * h.val + w.val, hq⟩ : Fin 4096)) (fun a => ?_)).trans ?_
  · match a with
    | ⟨0, _⟩ => simp
    | ⟨1, _⟩ => simp
    | ⟨2, _⟩ => simp
  rw [hgate (V10 m ρ) c _ _ (V10_v1 m ρ c) rfl n ch ⟨56 * h.val + w.val, hq⟩, xp_inside m ρ c n ch h w hq,
    scale_apply m ρ c hpool hmlp n ch]
  rfl

end Chain

end Cert.ReferenceIdeal.RValue

end
-- ==== Proof.RefPoolPieces.lean ====
/-
  The pooling kernel's body, read as values.

  At an even grid point (the first half of a sample's padded spatial axis) the body stores the zero block into the
  output buffer, reads it back, and stores the buffer plus the lane sums of the input block; at an odd point (the
  second half) it adds the lane sums of the input block to what the buffer held and then stores that sum times the
  averaging factor. This module reads the stores the run found back as those two values, for any float instance, and
  then reads the three stored values at an index over the extended reals: the zero block is 0, the accumulation step
  at channel `ch` is the buffer's entry plus the sum of the input block's row `ch` over its 2048 lanes, and the last
  step multiplies by the averaging factor.
-/
import proofs.«136967_g2000605387723184_pallasbulk_480_9_alg».proof.Proof.Gen.ReferenceIdeal.Frame
import proofs.«136967_g2000605387723184_pallasbulk_480_9_alg».proof.Proof.Spec
import Idealize.ShloMosaic.Lib.Pipeline.Value
import Idealize.ShloMosaic.Lib.ValueIdx
import Idealize.ShloMosaic.PureOps.Ideal.Laws
import Idealize.ShloMosaic.Lib.Tactic

noncomputable section

open scoped BigOperators

namespace Cert.ReferenceIdeal.Pool

open Idealize.ShloMosaic Idealize.ShloMosaic.TcCoe Idealize.ShloMosaic.ValueIdx Idealize.SL.Sem
open Cert.ReferenceIdeal Cert.ReferenceIdeal.Gen

/-! ## What each case of the body leaves in the output buffer, for any float instance -/

section AnyInstance

variable {F : FTy → Type} [FloatOps F]

/-- The zero offsets of a rank-3 whole-buffer rectangle. -/
theorem hz3 : (![0, 0, 0] : Fin 3 → Nat) = fun _ => 0 := funext fun a => by fin_cases a <;> rfl

/-- An even point: the body stores the zero block, reads it back, and leaves the accumulation step of the input
    block `x0` over the zero block (the last store covers the whole buffer, and its loads read the whole buffers). -/
theorem out_A (c : Dev nD) (i : grid0.Coords) (a2 : Memref sig .tc .vmem S1x256x2048 .f32) (h2 : a2.IsWhole)
    (a3 : Memref sig .tc .vmem S1x256x1 .f32) (h3 : a3.IsWhole) (hc0 : cond0_0 i) (hc1 : ¬cond0_1 i)
    (x0 : Vec F S1x256x2048 .f32) :
    out0_A_1 c i a2 h2 a3 h3 hc0 hc1 x0 = k0_pay2 x0 k0_pay1 := by
  unfold out0_A_1
  rw [View.read_writes_eq_canon _ _ _ (cover0_A_1 c i a2 h2 a3 h3 hc0 hc1 x0)]
  unfold kernelRun0_A
  dsimp only
  sl_unfold_words
  rw [View.canon_cons_unit_zero (S := S1x256x1) hz3, View.readCov_unit_zero (S := S1x256x1) _ hz3]
  simp only [View.readAt_eq_ld, h2.read_unread, View.ld_unit_zero (S := S1x256x2048) hz3]

/-- An odd point: over the buffer's running contents `xo` the body leaves the accumulation step of the input block
    `x0` over `xo`, times the averaging factor (again the last store covers the whole buffer, and the value it scales is
    the accumulation step's store read back whole). -/
theorem out_B (c : Dev nD) (i : grid0.Coords) (a2 : Memref sig .tc .vmem S1x256x2048 .f32) (h2 : a2.IsWhole)
    (a3 : Memref sig .tc .vmem S1x256x1 .f32) (h3 : a3.IsWhole) (hc0 : ¬cond0_0 i) (hc1 : cond0_1 i)
    (x0 : Vec F S1x256x2048 .f32) (xo : Vec F S1x256x1 .f32) :
    out0_B_1 c i a2 h2 a3 h3 hc0 hc1 x0 xo = k0_pay3 (k0_pay2 x0 xo) := by
  unfold out0_B_1
  rw [View.read_writes_eq_canon _ _ _ (cover0_B_1 c i a2 h2 a3 h3 hc0 hc1 x0 xo)]
  unfold kernelRun0_B
  dsimp only
  sl_unfold_words
  rw [View.canon_cons_unit_zero (S := S1x256x1) hz3, View.readCov_unit_zero (S := S1x256x1) _ hz3]
  simp only [View.readAt_eq_ld, h2.read_unread, h3.read_unread, View.ld_unit_zero (S := S1x256x2048) hz3,
    View.ld_unit_zero (S := S1x256x1) hz3]

end AnyInstance

/-! ## The stored values at an index, over the extended reals -/

/-- The zero block is 0 everywhere. -/
theorem pay1_apply (y : S1x256x1.Idx) : (k0_pay1 (F := Ideal) : S1x256x1.Idx → EReal) y = 0 := by
  unfold k0_pay1
  show Ideal.ofBits .f32 0x00000000#32 = 0
  exact Ideal.ofBits_zero_f32

/-- The accumulation step at channel `ch`: the buffer's entry plus the sum of the input block's row `ch` over its
    2048 lanes (the lane reduction into [1, 256] read as a sum over the reduced axis, the result viewed [1, 256, 1] at the
    same row-major position, the two same-shape casts the identity). -/
theorem pay2_apply (x0 : Vec Ideal S1x256x2048 .f32) (xo : Vec Ideal S1x256x1 .f32) (ch : Fin 256) :
    (k0_pay2 (F := Ideal) x0 xo : S1x256x1.Idx → EReal) (ix3 (0 : Fin 1) ch (0 : Fin 1))
      = xo (ix3 (0 : Fin 1) ch (0 : Fin 1)) + ∑ j : Fin 2048, x0 (ix3 (0 : Fin 1) ch j) := by
  unfold k0_pay2
  dsimp only
  rw [shapeCast_self, shapeCast_self]
  refine congrArg (xo (ix3 (0 : Fin 1) ch (0 : Fin 1)) + ·) ?_
  refine (shapeCast_apply _ _ (ix3 (0 : Fin 1) ch (0 : Fin 1)) (ix2 (0 : Fin 1) ch) ?_).trans ?_
  · rw [Shape.rowMajor_val_two, Shape.rowMajor_val_three]
    show (0 : Nat) * 256 + ch.val = ((0 : Nat) * 256 + ch.val) * 1 + 0
    omega
  refine (Ideal.multiReduction_add_single x0 0x00000000#32 reduces_S1x256x2048_S1x256 (.inl rfl) rfl
    (ix2 (0 : Fin 1) ch)).trans ?_
  refine Finset.sum_congr rfl fun k _ => congrArg x0 (funext fun a => Fin.ext ?_)
  match a with
  | ⟨0, _⟩ => rfl
  | ⟨1, _⟩ => rfl
  | ⟨2, _⟩ => rfl

/-- The last step multiplies every entry by the averaging factor (the same f32 word, never evaluated). -/
theorem pay3_apply (v : Vec Ideal S1x256x1 .f32) (y : S1x256x1.Idx) :
    (k0_pay3 (F := Ideal) v : S1x256x1.Idx → EReal) y = v y * Cert.Spec.inv := by
  unfold k0_pay3
  rw [shapeCast_self]
  rfl

end Cert.ReferenceIdeal.Pool

end
-- ==== Proof.LibAxisTiles.lean ====
/-
  An axis cut into consecutive tiles of equal width, and a sum over the axis regrouped tile by tile.

  An axis of extent `N = Tn · R` is the disjoint union of `Tn` consecutive tiles of width `R`: coordinate
  `R · s + r` is position `r` of tile `s`. A sum over the axis, in any commutative additive monoid, is therefore the
  sum over the tiles of the sums inside each tile. This is the law by which a contraction accumulated block by block
  (one block of the contracted axis per grid point or loop trip) equals the contraction taken whole; it needs no
  finiteness of the terms, so it holds on the extended reals as it stands.
-/
import Mathlib.Algebra.BigOperators.Fin

namespace Cert.LibAxisTiles

open scoped BigOperators

variable {Tn R N : ℕ}

/-- Position `r` of tile `s` on an axis of extent `N = Tn · R` cut into `Tn` consecutive tiles of width `R`:
    the coordinate `R · s + r`. -/
def tileIdx (hN : N = Tn * R) (s : Fin Tn) (r : Fin R) : Fin N :=
  ⟨R * s.val + r.val, by
    subst hN
    calc R * s.val + r.val < R * s.val + R := Nat.add_lt_add_left r.isLt _
      _ = R * (s.val + 1) := (Nat.mul_succ R s.val).symm
      _ ≤ R * Tn := Nat.mul_le_mul_left R s.isLt
      _ = Tn * R := Nat.mul_comm R Tn⟩

/-- The coordinate of position `r` of tile `s`. -/
@[simp] theorem tileIdx_val (hN : N = Tn * R) (s : Fin Tn) (r : Fin R) : (tileIdx hN s r).val = R * s.val + r.val := rfl

/-- A sum over the axis is the sum over the tiles of the sums inside each tile. -/
theorem sum_tiles {β : Type*} [AddCommMonoid β] (hN : N = Tn * R) (a : Fin N → β) :
    ∑ f : Fin N, a f = ∑ s : Fin Tn, ∑ r : Fin R, a (tileIdx hN s r) := by
  subst hN
  rw [← Equiv.sum_comp finProdFinEquiv a, Fintype.sum_prod_type]
  refine Finset.sum_congr rfl fun s _ => Finset.sum_congr rfl fun r _ => congrArg a (Fin.ext ?_)
  show r.val + R * s.val = R * s.val + r.val
  exact Nat.add_comm _ _

end Cert.LibAxisTiles
-- ==== Proof.RefPool.lean ====
/-
  The pooling pipeline's result array.

  The grid has 32 x 2 points; point t = 2 n + k reads the block of the padded input [32, 256, 4096] that holds sample n,
  all 256 channels, and the lanes 2048 k ... 2048 k + 2047 of the padded spatial axis. The output block of sample n is
  carried across its two points: the first point leaves 0 plus the lane sums of the first half, the second adds the
  lane sums of the second half and multiplies by the averaging factor, and only the second point writes the block back,
  to row n of the output array [32, 256, 1]. So the array ends holding, at (n, ch, 0), the sum of the padded input over
  the 4096 positions of (n, ch, .) — the two halves regrouped into one sum over the axis — times the averaging factor.
  Only 0 + a = a and the regrouping of a finite sum over an axis cut into two tiles are used; nothing is evaluated.
-/
import proofs.«136967_g2000605387723184_pallasbulk_480_9_alg».proof.Proof.Gen.ReferenceIdeal.Frame
import proofs.«136967_g2000605387723184_pallasbulk_480_9_alg».proof.Proof.Spec
import proofs.«136967_g2000605387723184_pallasbulk_480_9_alg».proof.Proof.RefPoolPieces
import proofs.«136967_g2000605387723184_pallasbulk_480_9_alg».proof.Proof.LibAxisTiles
import Idealize.ShloMosaic.Lib.Pipeline.Value
import Idealize.ShloMosaic.Lib.ValueIdx
import Idealize.ShloMosaic.PureOps.Ideal.Laws

noncomputable section

open scoped BigOperators

namespace Cert.ReferenceIdeal.Pool

open Idealize.ShloMosaic Idealize.ShloMosaic.TcCoe Idealize.ShloMosaic.ValueIdx Idealize.SL.Sem
open Cert.ReferenceIdeal Cert.ReferenceIdeal.Gen
open Idealize.ShloMosaic.Pipeline (Dat)

/-- The two windows' block indices at point `t`, decided once over the grid: the input block is (t / 2, 0, t % 2), the
    output block is (t / 2, 0, 0). -/
theorem idx_facts : ∀ t : Fin cfg0.N,
    win0_0.index t (0 : Fin 3) = t.val / 2 ∧ win0_0.index t (1 : Fin 3) = 0 ∧ win0_0.index t (2 : Fin 3) = t.val % 2
    ∧ win0_1.index t (0 : Fin 3) = t.val / 2 ∧ win0_1.index t (1 : Fin 3) = 0 ∧ win0_1.index t (2 : Fin 3) = 0 :=
  (by decide +kernel : ∀ t : Fin grid0.N,
    win0_0.index t (0 : Fin 3) = t.val / 2 ∧ win0_0.index t (1 : Fin 3) = 0 ∧ win0_0.index t (2 : Fin 3) = t.val % 2
    ∧ win0_1.index t (0 : Fin 3) = t.val / 2 ∧ win0_1.index t (1 : Fin 3) = 0 ∧ win0_1.index t (2 : Fin 3) = 0)

/-- The padded spatial axis is two tiles of 2048 lanes. -/
theorem h4096 : 4096 = 2 * 2048 := rfl

section Region

variable (V : (c : Dev nD) → (b : Ref sig .tc) → Buf (Elt Ideal) ((c : Thread nD τ).loc b)) (c : Dev nD)

/-- The input window's block at point `t`, as a function on [1, 256, 2048] into the extended reals. -/
abbrev blkAt (t : Fin cfg0.N) : S1x256x2048.Idx → EReal := iblk0 (F := Ideal) V c 0 t

/-- The output buffer after point `n`, as a function on [1, 256, 1] into the extended reals. -/
abbrev outsAt (n : ℕ) (h : n < cfg0.N) : S1x256x1.Idx → EReal := outsAt0 (F := Ideal) V c n h

set_option maxHeartbeats 100000 in
/-- The input block at point t = 2 n + k reads the padded input at sample `n`, the same channel, and position `j` of
    tile `k` of the spatial axis: a block's coordinate is its block index times the block size plus the coordinate
    inside the block. -/
theorem iblk_apply (xp : S32x256x4096.Idx → EReal) (hxp : V c main_v1 = xp) (t : Fin cfg0.N) (n : Fin 32) (k : Fin 2)
    (ht : t.val = 2 * n.val + k.val) (ch : Fin 256) (j : Fin 2048) :
    blkAt V c t (ix3 (0 : Fin 1) ch j) = xp (ix3 n ch (Cert.LibAxisTiles.tileIdx h4096 k j)) := by
  obtain ⟨e0, e1, e2, -⟩ := idx_facts t
  unfold blkAt iblk0
  rw [View.read_apply]
  show V c main_v1 (((cfg0.win 0).blk t).view.emb (ix3 (0 : Fin 1) ch j)) = _
  rw [hxp]
  refine congrArg xp (funext fun a => Fin.ext ?_)
  match a with
  | ⟨0, _⟩ => show win0_0.index t (0 : Fin 3) * 1 + 1 * 0 = n.val; have := k.isLt; omega
  | ⟨1, _⟩ => show win0_0.index t (1 : Fin 3) * 256 + 1 * ch.val = ch.val; omega
  | ⟨2, _⟩ => show win0_0.index t (2 : Fin 3) * 2048 + 1 * j.val = 2048 * k.val + j.val; have := k.isLt; omega

set_option maxHeartbeats 200000 in
/-- After an even point the output buffer holds, at channel `ch`, 0 plus the lane sum of that point's input block. -/
theorem outs_even (t : Fin cfg0.N) (h0 : t.val % 2 = 0) (ch : Fin 256) :
    outsAt V c t.val t.isLt (ix3 (0 : Fin 1) ch (0 : Fin 1))
      = 0 + ∑ j : Fin 2048, blkAt V c t (ix3 (0 : Fin 1) ch j) := by
  have h1 : ¬t.val % 2 = 1 := by omega
  show (outsAt0 (F := Ideal) V c t.val t.isLt : S1x256x1.Idx → EReal) (ix3 (0 : Fin 1) ch (0 : Fin 1)) = _
  rw [outsAt0_A V c t h0 h1,
    out_A (F := Ideal) c (grid0.coords t) (ms0_0 t) (hs0_0 t) (ms0_1 t) (hs0_1 t) ((hcond0_0 t).mpr h0)
      (fun h => h1 ((hcond0_1 t).mp h)) (iblk0 V c 0 t)]
  refine (pay2_apply (iblk0 (F := Ideal) V c 0 t) (k0_pay1 (F := Ideal)) ch).trans ?_
  rw [pay1_apply]

set_option maxHeartbeats 200000 in
/-- After an odd point it holds what the point before left plus the lane sum of this point's input block, times the
    averaging factor. -/
theorem outs_odd (t : Fin cfg0.N) (h1 : t.val % 2 = 1) (ch : Fin 256) :
    outsAt V c t.val t.isLt (ix3 (0 : Fin 1) ch (0 : Fin 1))
      = (outsAt V c (t.val - 1) (Nat.lt_of_le_of_lt (Nat.sub_le _ _) t.isLt) (ix3 (0 : Fin 1) ch (0 : Fin 1))
          + ∑ j : Fin 2048, blkAt V c t (ix3 (0 : Fin 1) ch j)) * Cert.Spec.inv := by
  have h0 : ¬t.val % 2 = 0 := by omega
  show (outsAt0 (F := Ideal) V c t.val t.isLt : S1x256x1.Idx → EReal) (ix3 (0 : Fin 1) ch (0 : Fin 1)) = _
  rw [outsAt0_B V c t h0 h1,
    out_B (F := Ideal) c (grid0.coords t) (ms0_0 t) (hs0_0 t) (ms0_1 t) (hs0_1 t) (fun h => h0 ((hcond0_0 t).mp h))
      ((hcond0_1 t).mpr h1) (iblk0 V c 0 t) (outsAt0 V c (t.val - 1) (Nat.lt_of_le_of_lt (Nat.sub_le _ _) t.isLt))]
  refine (pay3_apply _ _).trans ?_
  refine congrArg (· * Cert.Spec.inv) ?_
  exact pay2_apply (iblk0 (F := Ideal) V c 0 t) (outsAt0 V c (t.val - 1) (Nat.lt_of_le_of_lt (Nat.sub_le _ _) t.isLt)) ch

/-- So after the second point t = 2 n + 1 of sample `n` the output buffer holds, at channel `ch`, the sum of the
    padded input over all 4096 positions of (n, ch, ·) times the averaging factor: the first point's half and the second
    point's half are the two tiles of the axis. -/
theorem outs_last (xp : S32x256x4096.Idx → EReal) (hxp : V c main_v1 = xp) (t : Fin cfg0.N) (n : Fin 32)
    (ht : t.val = 2 * n.val + 1) (ch : Fin 256) :
    outsAt V c t.val t.isLt (ix3 (0 : Fin 1) ch (0 : Fin 1)) = (∑ q : Fin 4096, xp (ix3 n ch q)) * Cert.Spec.inv := by
  have h1 : t.val % 2 = 1 := by omega
  have hlt : t.val - 1 < cfg0.N := Nat.lt_of_le_of_lt (Nat.sub_le _ _) t.isLt
  have hp0 : (⟨t.val - 1, hlt⟩ : Fin cfg0.N).val % 2 = 0 := by show (t.val - 1) % 2 = 0; omega
  have e0 : outsAt V c (t.val - 1) hlt (ix3 (0 : Fin 1) ch (0 : Fin 1))
      = 0 + ∑ j : Fin 2048, blkAt V c ⟨t.val - 1, hlt⟩ (ix3 (0 : Fin 1) ch j) := outs_even V c ⟨t.val - 1, hlt⟩ hp0 ch
  rw [outs_odd V c t h1 ch, e0, zero_add, Cert.LibAxisTiles.sum_tiles h4096 (fun q => xp (ix3 n ch q)), Fin.sum_univ_two]
  refine congrArg (· * Cert.Spec.inv) (congrArg₂ (· + ·) ?_ ?_)
  · exact Finset.sum_congr rfl fun j _ =>
      iblk_apply V c xp hxp ⟨t.val - 1, hlt⟩ n 0 (by show t.val - 1 = 2 * n.val + 0; omega) ch j
  · exact Finset.sum_congr rfl fun j _ => iblk_apply V c xp hxp t n 1 (by show t.val = 2 * n.val + 1; omega) ch j

/-- The pooled array [32, 256, 1] as one function of the padded input: at (n, ch, ·) the sum over the 4096 positions times
    the averaging factor. -/
def pooledArr (xp : S32x256x4096.Idx → EReal) : S32x256x1.Idx → EReal :=
  fun i => (∑ q : Fin 4096, xp (ix3 (n0 := 32) (n1 := 256) (i 0) (i 1) q)) * Cert.Spec.inv

theorem pooledArr_apply (xp : S32x256x4096.Idx → EReal) (n : Fin 32) (ch : Fin 256) :
    pooledArr xp (ix3 n ch (0 : Fin 1)) = (∑ q : Fin 4096, xp (ix3 n ch q)) * Cert.Spec.inv := rfl

set_option maxHeartbeats 200000 in
/-- What the output buffer holds after an odd point `t` is block `t` of the pooled array: entry (0, ch, 0) of the block
    sits at (t / 2, ch, 0) of the array. -/
theorem flushed_at (xp : S32x256x4096.Idx → EReal) (hxp : V c main_v1 = xp) (t : Fin cfg0.N) (h1 : t.val % 2 = 1)
    (y : S1x256x1.Idx) :
    outsAt V c t.val t.isLt y = pooledArr xp (((cfg0.win 1).blk t).view.emb y) := by
  have hN : t.val < 64 := lt_of_lt_of_eq t.isLt N_0
  obtain ⟨-, -, -, e3, e4, e5⟩ := idx_facts t
  obtain ⟨a, ch, b, rfl⟩ : ∃ (a : Fin 1) (ch : Fin 256) (b : Fin 1), y = ix3 a ch b := ⟨y 0, y 1, y 2, eq_ix3 y⟩
  obtain rfl : a = 0 := Subsingleton.elim _ _
  obtain rfl : b = 0 := Subsingleton.elim _ _
  have hn : t.val / 2 < 32 := by omega
  rw [outs_last V c xp hxp t ⟨t.val / 2, hn⟩ (by show t.val = 2 * (t.val / 2) + 1; omega) ch]
  refine (pooledArr_apply xp ⟨t.val / 2, hn⟩ ch).symm.trans (congrArg (pooledArr xp) (funext fun a => Fin.ext ?_))
  match a with
  | ⟨0, _⟩ => show t.val / 2 = win0_1.index t (0 : Fin 3) * 1 + 1 * 0; omega
  | ⟨1, _⟩ => show ch.val = win0_1.index t (1 : Fin 3) * 256 + 1 * ch.val; omega
  | ⟨2, _⟩ => show 0 = win0_1.index t (2 : Fin 3) * 1 + 1 * 0; omega

set_option maxHeartbeats 200000 in
/-- Every point that writes the output block back (the odd points) writes its block of the pooled array. -/
theorem flushed_eq (xp : S32x256x4096.Idx → EReal) (hxp : V c main_v1 = xp) (t : Fin cfg0.N)
    (hf : (cfg0.win 1).flush t = true) :
    (dat0 (F := Ideal) V c).flushed 1 t = ((cfg0.win 1).blk t).view.read (Elt Ideal) (pooledArr xp) := by
  have h1 : t.val % 2 = 1 := (flush0_1 t).mp hf
  show (cfg0.win 1).cut (grid0.coords t) ((dat0 V c).after 1 t) = _
  rw [after0_1]
  funext y
  rw [View.read_apply]
  exact flushed_at V c xp hxp t h1 y

end Region

set_option maxHeartbeats 200000 in
/-- Region 0 (the pooling pipeline over the grid 32 x 2), entered at any contents `V` whose input array
    [32, 256, 4096] is `xp`: after its last point the output array [32, 256, 1] holds, at (n, ch, 0), the sum over
    the 4096 padded spatial positions of `xp` at (n, ch, ·), times the averaging factor. -/
theorem arr_eq (V : (c : Dev nD) → (b : Ref sig .tc) → Buf (Elt Ideal) ((c : Thread nD τ).loc b)) (c : Dev nD)
    (xp : S32x256x4096.Idx → EReal) (hxp : V c main_v1 = xp) (n : Fin 32) (ch : Fin 256) :
    ((Gen.dat0 (F := Ideal) V c).arrAt 1 cfg0.N : S32x256x1.Idx → EReal) (ix3 n ch (0 : Fin 1))
      = (∑ q : Fin 4096, xp (ix3 n ch q)) * Cert.Spec.inv := by
  -- row n of the output array is written back by the second point of sample n, and by no later point differently
  have hlt : 2 * n.val + 1 < cfg0.N := lt_of_lt_of_eq (by omega : 2 * n.val + 1 < 64) (show cfg0.N = 64 from N_0).symm
  obtain ⟨-, -, -, e3, e4, e5⟩ := idx_facts ⟨2 * n.val + 1, hlt⟩
  have e3' : win0_1.index ⟨2 * n.val + 1, hlt⟩ (0 : Fin 3) = (2 * n.val + 1) / 2 := e3
  refine ((dat0 (F := Ideal) V c).arrAt_apply_of_mem 1 (pooledArr xp) (fun t hf => flushed_eq V c xp hxp t hf) cfg0.N
    ⟨2 * n.val + 1, hlt⟩ (ix3 n ch (0 : Fin 1)) hlt
    ((flush0_1 ⟨2 * n.val + 1, hlt⟩).mpr (by show (2 * n.val + 1) % 2 = 1; omega)) ?_).trans (pooledArr_apply xp n ch)
  show ix3 n ch (0 : Fin 1) ∈ ((View.whole main_v6).slice (win0_1.rect ⟨2 * n.val + 1, hlt⟩)).set
  rw [View.set_slice_whole, Rect.mem_set_unit]
  intro a
  match a with
  | ⟨0, _⟩ =>
    show win0_1.index ⟨2 * n.val + 1, hlt⟩ (0 : Fin 3) * 1 ≤ n.val
      ∧ n.val < win0_1.index ⟨2 * n.val + 1, hlt⟩ (0 : Fin 3) * 1 + 1
    omega
  | ⟨1, _⟩ =>
    show win0_1.index ⟨2 * n.val + 1, hlt⟩ (1 : Fin 3) * 256 ≤ ch.val
      ∧ ch.val < win0_1.index ⟨2 * n.val + 1, hlt⟩ (1 : Fin 3) * 256 + 256
    have := ch.isLt; omega
  | ⟨2, _⟩ =>
    show win0_1.index ⟨2 * n.val + 1, hlt⟩ (2 : Fin 3) * 1 ≤ 0
      ∧ 0 < win0_1.index ⟨2 * n.val + 1, hlt⟩ (2 : Fin 3) * 1 + 1
    omega

end Cert.ReferenceIdeal.Pool

end
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.RefMlp.lean ====
import proofs.«136967_g2000605387723184_pallasbulk_480_9_alg».proof.Proof.Gen.ReferenceIdeal.Frame
import proofs.«136967_g2000605387723184_pallasbulk_480_9_alg».proof.Proof.Spec
import proofs.«136967_g2000605387723184_pallasbulk_480_9_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.ReferenceIdeal.Mlp

open Idealize.ShloMosaic Idealize.ShloMosaic.TcCoe Idealize.ShloMosaic.ValueIdx Idealize.SL.Sem
open Cert.ReferenceIdeal

/-- The first product's dimension numbers are the plain ones: [32, 256] by [256, 16]. -/
theorem dot1_eq : dot_S32x256_S256x16_S32x16_1_0_0_1_n_n = DotDims.plain 32 256 16 := rfl
/-- The second product's dimension numbers are the plain ones: [32, 16] by [16, 256]. -/
theorem dot2_eq : dot_S32x16_S16x256_S32x256_1_0_0_1_n_n = DotDims.plain 32 16 256 := rfl

/-- The body's result at an entry: the logistic function of the rectified first product's row against the column of
    the third operand. -/
theorem pay_apply (v0 : Vec Ideal S32x256 .f32) (v2 : Vec Ideal S256x16 .f32) (v7 : Vec Ideal S16x256 .f32) (n : Fin 32) (ch : Fin 256) :
    Gen.k1_pay1 (F := Ideal) v0 v2 v7 (ix2 n ch)
      = Ideal.logistic (∑ j : Fin 16, max (∑ k : Fin 256, v0 (ix2 n k) * v2 (ix2 k j)) 0 * v7 (ix2 j ch)) := by
  unfold Gen.k1_pay1
  simp only [shapeCast_self]
  rw [dot1_eq, dot2_eq]
  refine congrArg Ideal.logistic ?_
  refine (Cert.LibPlainMatmul.matmul_zero_apply 32 16 256 none _ v7 n ch).trans ?_
  refine Finset.sum_congr rfl fun j _ => ?_
  refine congrArg (· * v7 (ix2 j ch)) ?_
  rw [maximumf_apply, broadcast_apply]
  refine congrArg₂ max ?_ Ideal.ofBits_zero_f32
  exact Cert.LibPlainMatmul.matmul_zero_apply 32 256 16 none v0 v2 n j

/-- The zero offsets of a whole block. -/
theorem hz2 : (![0, 0] : Fin 2 → Nat) = fun _ => 0 := funext fun a => by fin_cases a <;> rfl

/-- The output array as one function of the three input arrays. -/
def Gm (p : S32x256.Idx → EReal) (a : S256x16.Idx → EReal) (b : S16x256.Idx → EReal) : S32x256.Idx → EReal :=
  fun i => Ideal.logistic (∑ j : Fin 16, max (∑ k : Fin 256, p (ix2 (i 0 : Fin 32) k) * a (ix2 k j)) 0 * b (ix2 j (i 1 : Fin 256)))

/-- One entry of what the one point leaves, over variables for the three blocks and the three arrays. -/
theorem point_eq (P : S32x256.Idx → EReal) (A : S256x16.Idx → EReal) (B : S16x256.Idx → EReal)
    (x0 : Vec Ideal S32x256 .f32) (x1 : Vec Ideal S256x16 .f32) (x2 : Vec Ideal S16x256 .f32) (j i : S32x256.Idx)
    (h0 : x0 = P) (h1 : x1 = A) (h2 : x2 = B) (hji : j = i) :
    Gen.k1_pay1 (F := Ideal) x0 x1 x2 j = Gm P A B i := by
  subst h0 h1 h2 hji
  obtain ⟨n, ch, rfl⟩ : ∃ (n : Fin 32) (ch : Fin 256), j = ix2 n ch := ⟨j 0, j 1, eq_ix2 j⟩
  rw [pay_apply]
  rfl

/-- What the one point writes back is the whole of the function above (its block is the whole array). -/
theorem flushed_eq (V : (c : Dev nD) → (b : Ref sig .tc) → Buf (Elt Ideal) ((c : Thread nD τ).loc b)) (c : Dev nD) (t : Fin cfg1.N) :
    (Gen.dat1 (F := Ideal) V c).flushed 3 t
      = ((cfg1.win 3).blk t).view.read (Elt Ideal) (Gm (V c main_v7) (V c main_v3) (V c main_v5)) := by
  show (cfg1.win 3).cut (grid1.coords t) ((Gen.dat1 V c).after 3 t) = _
  rw [Gen.after1_3]
  unfold Gen.out1_3
  rw [View.canon_unit_zero hz2]
  simp only [View.ld_unit_zero (S := S32x256) hz2, View.ld_unit_zero (S := S256x16) hz2, View.ld_unit_zero (S := S16x256) hz2]
  funext j
  show Gen.k1_pay1 (F := Ideal) (Gen.iblk1 V c 0 t) (Gen.iblk1 V c 1 t) (Gen.iblk1 V c 2 t) j
    = Gm (V c main_v7) (V c main_v3) (V c main_v5) (((cfg1.win 3).blk t).view.emb j)
  refine point_eq (V c main_v7) (V c main_v3) (V c main_v5) _ _ _ j _ ?_ ?_ ?_ ?_
  · funext y
    show V c main_v7 (((cfg1.win 0).blk t).view.emb y) = V c main_v7 y
    refine congrArg _ (funext fun a => Fin.ext ?_)
    match a with
    | ⟨0, _⟩ => show 0 * 32 + 1 * (y 0).val = (y 0).val; omega
    | ⟨1, _⟩ => show 0 * 256 + 1 * (y 1).val = (y 1).val; omega
  · funext y
    show V c main_v3 (((cfg1.win 1).blk t).view.emb y) = V c main_v3 y
    refine congrArg _ (funext fun a => Fin.ext ?_)
    match a with
    | ⟨0, _⟩ => show 0 * 256 + 1 * (y 0).val = (y 0).val; omega
    | ⟨1, _⟩ => show 0 * 16 + 1 * (y 1).val = (y 1).val; omega
  · funext y
    show V c main_v5 (((cfg1.win 2).blk t).view.emb y) = V c main_v5 y
    refine congrArg _ (funext fun a => Fin.ext ?_)
    match a with
    | ⟨0, _⟩ => show 0 * 16 + 1 * (y 0).val = (y 0).val; omega
    | ⟨1, _⟩ => show 0 * 256 + 1 * (y 1).val = (y 1).val; omega
  · refine funext fun a => Fin.ext ?_
    match a with
    | ⟨0, _⟩ => show (j 0).val = 0 * 32 + 1 * (j 0).val; omega
    | ⟨1, _⟩ => show (j 1).val = 0 * 256 + 1 * (j 1).val; omega

/-- Every index of the output array lies in the one point's block, which is the whole array. -/
theorem mem_blk (t : Fin cfg1.N) (i : S32x256.Idx) : i ∈ ((cfg1.win 3).blk t).view.set := by
  show i ∈ ((View.whole main_v8).slice (win1_3.rect t)).set
  rw [View.set_slice_whole, Rect.mem_set_unit]
  have h0 : (i 0).val < 32 := (i 0).isLt
  have h1 : (i 1).val < 256 := (i 1).isLt
  intro a
  match a with
  | ⟨0, _⟩ => show 0 * 32 ≤ (i 0).val ∧ (i 0).val < 0 * 32 + 32; omega
  | ⟨1, _⟩ => show 0 * 256 ≤ (i 1).val ∧ (i 1).val < 0 * 256 + 256; omega

/-- Region 1 (the one-point pipeline of the two small products), entered at any contents `V` whose three input
    arrays [32, 256], [256, 16], [16, 256] are `p`, `a`, `b`: its output array [32, 256] holds at (n, ch) the logistic
    function of the sum over j of max(sum over k of p(n, k) * a(k, j), 0) * b(j, ch). -/
theorem arr_eq (V : (c : Dev nD) → (b : Ref sig .tc) → Buf (Elt Ideal) ((c : Thread nD τ).loc b)) (c : Dev nD)
    (p : S32x256.Idx → EReal) (a : S256x16.Idx → EReal) (b : S16x256.Idx → EReal)
    (hp : V c main_v7 = p) (ha : V c main_v3 = a) (hb : V c main_v5 = b) (n : Fin 32) (ch : Fin 256) :
    ((Gen.dat1 (F := Ideal) V c).arrAt 3 cfg1.N : S32x256.Idx → EReal) (ix2 n ch)
      = Ideal.logistic (∑ j : Fin 16, max (∑ k : Fin 256, p (ix2 n k) * a (ix2 k j)) 0 * b (ix2 j ch)) := by
  subst hp ha hb
  have hN : cfg1.N = 1 := Gen.N_1
  have ht : 0 < cfg1.N := by rw [hN]; omega
  exact (Gen.dat1 (F := Ideal) V c).arrAt_apply_of_mem 3 (Gm (V c main_v7) (V c main_v3) (V c main_v5))
    (fun t _ => flushed_eq V c t) cfg1.N ⟨0, ht⟩ (ix2 n ch) ht (Gen.flush1_3 _) (mem_blk _ _)

end Cert.ReferenceIdeal.Mlp

end
-- ==== Proof.RefGate.lean ====
import proofs.«136967_g2000605387723184_pallasbulk_480_9_alg».proof.Proof.Gen.ReferenceIdeal.Frame
import proofs.«136967_g2000605387723184_pallasbulk_480_9_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.GateR

open Idealize.ShloMosaic Idealize.ShloMosaic.TcCoe Idealize.ShloMosaic.ValueIdx Idealize.SL.Sem
open Cert.ReferenceIdeal

/-- The zero offsets of a whole block. -/
theorem hz3 : (![0, 0, 0] : Fin 3 → Nat) = fun _ => 0 := funext fun a => by fin_cases a <;> rfl

/-- The body's product at an index of the block: the activation there times the scale of its channel. -/
theorem pay_apply (x0 : Vec Ideal S1x256x2048 .f32) (x1 : Vec Ideal S1x256x1 .f32) (a : Fin 1) (b : Fin 256) (d : Fin 2048) :
    Gen.k2_pay1 (F := Ideal) x0 x1 (ix3 a b d) = x0 (ix3 a b d) * x1 (ix3 (0 : Fin 1) b (0 : Fin 1)) := by
  unfold Gen.k2_pay1
  simp only [shapeCast_self]
  rw [mulf_apply]
  congr 1
  refine broadcastTo_apply _ _ _ _ (fun e => ?_)
  match e with
  | ⟨0, _⟩ => rfl
  | ⟨1, _⟩ => rfl
  | ⟨2, _⟩ => rfl

/-- The three index maps over the grid: point t = 2 n + k reads sample n, half k of the activations, sample n of the
    scales, and writes sample n, half k of the output. -/
theorem idx_facts : ∀ t : Fin cfg2.N,
      win2_0.index t (0 : Fin 3) = t.val / 2 ∧ win2_0.index t (1 : Fin 3) = 0 ∧ win2_0.index t (2 : Fin 3) = t.val % 2
    ∧ win2_1.index t (0 : Fin 3) = t.val / 2 ∧ win2_1.index t (1 : Fin 3) = 0 ∧ win2_1.index t (2 : Fin 3) = 0
    ∧ win2_2.index t (0 : Fin 3) = t.val / 2 ∧ win2_2.index t (1 : Fin 3) = 0 ∧ win2_2.index t (2 : Fin 3) = t.val % 2 :=
  (by decide +kernel : ∀ t : Fin grid2.N, _)

/-- The output array as one function of the two input arrays. -/
def Gg (xp : S32x256x4096.Idx → EReal) (s : S32x256x1.Idx → EReal) : S32x256x4096.Idx → EReal :=
  fun i => xp i * s (ix3 (i 0 : Fin 32) (i 1 : Fin 256) (0 : Fin 1))

/-- One entry of what a point leaves: the product, over variables for the two blocks and the two arrays. -/
theorem point_eq (A : S32x256x4096.Idx → EReal) (B : S32x256x1.Idx → EReal)
    (x0 : Vec Ideal S1x256x2048 .f32) (x1 : Vec Ideal S1x256x1 .f32) (j : S1x256x2048.Idx) (i : S32x256x4096.Idx)
    (h0 : x0 j = A i)
    (h1 : x1 (ix3 (0 : Fin 1) (j 1 : Fin 256) (0 : Fin 1)) = B (ix3 (i 0 : Fin 32) (i 1 : Fin 256) (0 : Fin 1))) :
    Gen.k2_pay1 (F := Ideal) x0 x1 j = Gg A B i := by
  obtain ⟨a, b, d, rfl⟩ : ∃ (a : Fin 1) (b : Fin 256) (d : Fin 2048), j = ix3 a b d := ⟨j 0, j 1, j 2, eq_ix3 j⟩
  rw [pay_apply, h0]
  exact congrArg (A i * ·) h1

/-- What point t writes back is block t of the product array. -/
theorem flushed_eq (V : (c : Dev nD) → (b : Ref sig .tc) → Buf (Elt Ideal) ((c : Thread nD τ).loc b)) (c : Dev nD) (t : Fin cfg2.N) :
    (Gen.dat2 (F := Ideal) V c).flushed 2 t = ((cfg2.win 2).blk t).view.read (Elt Ideal) (Gg (V c main_v1) (V c main_v9)) := by
  show (cfg2.win 2).cut (grid2.coords t) ((Gen.dat2 V c).after 2 t) = _
  rw [Gen.after2_2]
  unfold Gen.out2_2
  rw [View.canon_unit_zero hz3]
  simp only [View.ld_unit_zero (S := S1x256x2048) hz3, View.ld_unit_zero (S := S1x256x1) hz3]
  funext j
  obtain ⟨e00, e01, e02, e10, e11, e12, e20, e21, e22⟩ := idx_facts t
  show Gen.k2_pay1 (F := Ideal) (Gen.iblk2 V c 0 t) (Gen.iblk2 V c 1 t) j
    = Gg (V c main_v1) (V c main_v9) (((cfg2.win 2).blk t).view.emb j)
  have hj0 : (j 0).val < 1 := (j 0).isLt
  refine point_eq (V c main_v1) (V c main_v9) _ _ j _ ?_ ?_
  · show V c main_v1 (((cfg2.win 0).blk t).view.emb j) = V c main_v1 (((cfg2.win 2).blk t).view.emb j)
    refine congrArg _ (funext fun a => Fin.ext ?_)
    match a with
    | ⟨0, _⟩ => show win2_0.index t (0 : Fin 3) * 1 + 1 * (j 0).val = win2_2.index t (0 : Fin 3) * 1 + 1 * (j 0).val; omega
    | ⟨1, _⟩ => show win2_0.index t (1 : Fin 3) * 256 + 1 * (j 1).val = win2_2.index t (1 : Fin 3) * 256 + 1 * (j 1).val; omega
    | ⟨2, _⟩ => show win2_0.index t (2 : Fin 3) * 2048 + 1 * (j 2).val = win2_2.index t (2 : Fin 3) * 2048 + 1 * (j 2).val; omega
  · show V c main_v9 (((cfg2.win 1).blk t).view.emb (ix3 (0 : Fin 1) (j 1 : Fin 256) (0 : Fin 1))) = V c main_v9 _
    refine congrArg _ (funext fun a => Fin.ext ?_)
    match a with
    | ⟨0, _⟩ => show win2_1.index t (0 : Fin 3) * 1 + 1 * 0 = win2_2.index t (0 : Fin 3) * 1 + 1 * (j 0).val; omega
    | ⟨1, _⟩ => show win2_1.index t (1 : Fin 3) * 256 + 1 * (j 1).val = win2_2.index t (1 : Fin 3) * 256 + 1 * (j 1).val; omega
    | ⟨2, _⟩ => show win2_1.index t (2 : Fin 3) * 1 + 1 * 0 = 0; omega

/-- An index of the output array lies in point t's block iff each coordinate lies in the block's range on its axis. -/
theorem mem_blk (t : Fin cfg2.N) (i : S32x256x4096.Idx) :
    i ∈ ((cfg2.win 2).blk t).view.set ↔ ∀ a : Fin 3, win2_2.index t a * S1x256x2048.size a ≤ (i a).val
      ∧ (i a).val < win2_2.index t a * S1x256x2048.size a + S1x256x2048.size a := by
  show i ∈ ((View.whole main_v10).slice (win2_2.rect t)).set ↔ _
  rw [View.set_slice_whole, Rect.mem_set_unit]
  exact Iff.rfl

/-- Region 2 (the gating pipeline over the grid 32 x 2), entered at any contents `V` whose input array
    [32, 256, 4096] is `xp` and whose scale array [32, 256, 1] is `s`: its output array [32, 256, 4096] holds at
    (n, ch, q) the entry `xp (n, ch, q)` times `s (n, ch, 0)`. -/
theorem arr_eq (V : (c : Dev nD) → (b : Ref sig .tc) → Buf (Elt Ideal) ((c : Thread nD τ).loc b)) (c : Dev nD)
    (xp : S32x256x4096.Idx → EReal) (s : S32x256x1.Idx → EReal) (hxp : V c main_v1 = xp) (hs : V c main_v9 = s)
    (n : Fin 32) (ch : Fin 256) (q : Fin 4096) :
    ((Gen.dat2 (F := Ideal) V c).arrAt 2 cfg2.N : S32x256x4096.Idx → EReal) (ix3 n ch q)
      = xp (ix3 n ch q) * s (ix3 n ch (0 : Fin 1)) := by
  subst hxp hs
  have hN : cfg2.N = 64 := Gen.N_2
  have hq : q.val < 4096 := q.isLt
  have hn : n.val < 32 := n.isLt
  have hch : ch.val < 256 := ch.isLt
  -- the point whose block holds the entry: sample n, half q / 2048
  have ht : 2 * n.val + q.val / 2048 < cfg2.N := by rw [hN]; omega
  have hmem : ix3 n ch q ∈ ((cfg2.win 2).blk ⟨2 * n.val + q.val / 2048, ht⟩).view.set := by
    rw [mem_blk]
    obtain ⟨-, -, -, -, -, -, e20, e21, e22⟩ := idx_facts ⟨2 * n.val + q.val / 2048, ht⟩
    intro a
    match a with
    | ⟨0, _⟩ =>
      show win2_2.index ⟨2 * n.val + q.val / 2048, ht⟩ (0 : Fin 3) * 1 ≤ n.val
        ∧ n.val < win2_2.index ⟨2 * n.val + q.val / 2048, ht⟩ (0 : Fin 3) * 1 + 1
      rw [e20]; show (2 * n.val + q.val / 2048) / 2 * 1 ≤ n.val ∧ n.val < (2 * n.val + q.val / 2048) / 2 * 1 + 1; omega
    | ⟨1, _⟩ =>
      show win2_2.index ⟨2 * n.val + q.val / 2048, ht⟩ (1 : Fin 3) * 256 ≤ ch.val
        ∧ ch.val < win2_2.index ⟨2 * n.val + q.val / 2048, ht⟩ (1 : Fin 3) * 256 + 256
      rw [e21]; omega
    | ⟨2, _⟩ =>
      show win2_2.index ⟨2 * n.val + q.val / 2048, ht⟩ (2 : Fin 3) * 2048 ≤ q.val
        ∧ q.val < win2_2.index ⟨2 * n.val + q.val / 2048, ht⟩ (2 : Fin 3) * 2048 + 2048
      rw [e22]; show (2 * n.val + q.val / 2048) % 2 * 2048 ≤ q.val ∧ q.val < (2 * n.val + q.val / 2048) % 2 * 2048 + 2048; omega
  exact (Gen.dat2 (F := Ideal) V c).arrAt_apply_of_mem 2 (Gg (V c main_v1) (V c main_v9)) (fun t _ => flushed_eq V c t)
    cfg2.N ⟨2 * n.val + q.val / 2048, ht⟩ (ix3 n ch q) ht (Gen.flush2_2 _) hmem

end Cert.ReferenceIdeal.GateR

end
-- ==== Proof.Claims.lean ====
/-
  The five claims. The three frames are the generated frame certificates. The idealization rewrote nothing, so
  `preserves` is trivial. For `algebraic`: the idealized kernel's run ends with its result at the gated activations
  `Cert.Spec.G` of its arguments (one pipeline on the channels-last transpose, transposed back), the idealized
  reference's run ends with its result at the same function of its arguments (the pooling, small-products and gating
  pipelines chained through the host reshapes, pads and slice), and the two memories agree on the arguments.
-/
import proofs.«136967_g2000605387723184_pallasbulk_480_9_alg».proof.Defs
import proofs.«136967_g2000605387723184_pallasbulk_480_9_alg».proof.Proof.Gen.Kernel.Frame
import proofs.«136967_g2000605387723184_pallasbulk_480_9_alg».proof.Proof.Gen.KernelIdeal.Frame
import proofs.«136967_g2000605387723184_pallasbulk_480_9_alg».proof.Proof.Gen.ReferenceIdeal.Frame
import proofs.«136967_g2000605387723184_pallasbulk_480_9_alg».proof.Proof.Gen.Pre_finite_inputs
import proofs.«136967_g2000605387723184_pallasbulk_480_9_alg».proof.Proof.KernelValue
import proofs.«136967_g2000605387723184_pallasbulk_480_9_alg».proof.Proof.RefRun
import proofs.«136967_g2000605387723184_pallasbulk_480_9_alg».proof.Proof.RefValue
import proofs.«136967_g2000605387723184_pallasbulk_480_9_alg».proof.Proof.RefPool
import proofs.«136967_g2000605387723184_pallasbulk_480_9_alg».proof.Proof.RefMlp
import proofs.«136967_g2000605387723184_pallasbulk_480_9_alg».proof.Proof.RefGate

noncomputable section

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization is the program's own text read on the extended reals: nothing to state. -/
theorem preserves : Cert.preserves_Kernel_KernelIdeal := trivial

/-- Both runs end with their results at `Cert.Spec.G` of arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun r h c => ⟨(h c).1.trans ?_, (h c).2⟩)
    (Cert.ReferenceIdeal.RValue.run_W12 (F := Ideal) m' ρ')
  rw [Cert.ReferenceIdeal.RValue.result_eq m' ρ' c Cert.ReferenceIdeal.Pool.arr_eq Cert.ReferenceIdeal.Mlp.arr_eq
    Cert.ReferenceIdeal.GateR.arr_eq, (hagree c).1, (hagree c).2.1, (hagree c).2.2]

end Cert.Proof.Claims

end
-- ==== Proof.lean ====
/-
  A channel-attention layer: out = x * logistic(w2 · max(w1 · mean over the 56 x 56 plane of x, 0)), per sample and
  channel. The kernel computes it in one pipeline over blocks of four samples of the channels-last transpose of x; the
  reference in three pipelines over a zero-padded flattening of the plane (a pooled sum accumulated over two tiles, the
  two small products for all samples at once, and the gating). On the extended reals both are the one function
  `Cert.Spec.G` of the three arguments (Proof/Spec.lean): the padding adds zeros to the pooled sum, the tiles and the
  row-major flattening only regroup it, and the two programs multiply by the same averaging word and take the same
  products. No finiteness of the inputs is used. The claims are assembled in Proof/Claims.lean.
-/
import proofs.«136967_g2000605387723184_pallasbulk_480_9_alg».proof.Defs
import proofs.«136967_g2000605387723184_pallasbulk_480_9_alg».proof.Proof.Gen.Kernel
import proofs.«136967_g2000605387723184_pallasbulk_480_9_alg».proof.Proof.Gen.KernelIdeal
import proofs.«136967_g2000605387723184_pallasbulk_480_9_alg».proof.Proof.Gen.ReferenceIdeal
import proofs.«136967_g2000605387723184_pallasbulk_480_9_alg».proof.Proof.Gen.Pre_finite_inputs
import proofs.«136967_g2000605387723184_pallasbulk_480_9_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
